-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x12288 : Shape := ⟨2, ![1024, 12288]⟩
abbrev S3072x12288 : Shape := ⟨2, ![3072, 12288]⟩
abbrev S_ : Shape := ⟨0, ![]⟩

class Facts : Prop where
  bcast_S_S1024x12288 : S_.BroadcastsInDim S1024x12288 (![] : Fin 0 → Fin S1024x12288.rank)
  reducesTo_S1024x12288_S_d0_1 : S1024x12288.ReducesTo [0, 1] S_
  h_S_ : 0 < S_.numel
  bcast_S_S3072x12288 : S_.BroadcastsInDim S3072x12288 (![] : Fin 0 → Fin S3072x12288.rank)
  reducesTo_S3072x12288_S_d0_1 : S3072x12288.ReducesTo [0, 1] S_

variable [Facts]

def fn {F : FTy → Type} [FloatOps F] (main_arg0 : FVec F S1024x12288 .f32) (main_arg1 : FVec F S3072x12288 .f32) (main_arg2 : FVec F S3072x12288 .f32) : IVec S_ 1 :=
  let main_v0 : FVec F S1024x12288 .f32 := Host.absf main_arg0
  let main_cst : FVec F S_ .f32 := constant S_ .f32 0x7F800000#32
  let main_v1 : FVec F S1024x12288 .f32 := broadcastInDim S1024x12288 ![] bcast_S_S1024x12288 main_cst
  let main_v2 : IVec S1024x12288 1 := cmpf .olt main_v0 main_v1
  let main_c : IVec S_ 1 := constantI S_ 1 1#1
  let main_v3 : IVec S_ 1 := (fun x v => Host.reduce IntOp.andi x v reducesTo_S1024x12288_S_d0_1 h_S_) main_v2 main_c
  let main_v4 : FVec F S3072x12288 .f32 := Host.absf main_arg1
  let main_cst_0 : FVec F S_ .f32 := constant S_ .f32 0x7F800000#32
  let main_v5 : FVec F S3072x12288 .f32 := broadcastInDim S3072x12288 ![] bcast_S_S3072x12288 main_cst_0
  let main_v6 : IVec S3072x12288 1 := cmpf .olt main_v4 main_v5
  let main_c_1 : IVec S_ 1 := constantI S_ 1 1#1
  let main_v7 : IVec S_ 1 := (fun x v => Host.reduce IntOp.andi x v reducesTo_S3072x12288_S_d0_1 h_S_) main_v6 main_c_1
  let main_v8 : IVec S_ 1 := andi main_v3 main_v7
  let main_v9 : FVec F S3072x12288 .f32 := Host.absf main_arg2
  let main_cst_2 : FVec F S_ .f32 := constant S_ .f32 0x7F800000#32
  let main_v10 : FVec F S3072x12288 .f32 := broadcastInDim S3072x12288 ![] bcast_S_S3072x12288 main_cst_2
  let main_v11 : IVec S3072x12288 1 := cmpf .olt main_v9 main_v10
  let main_c_3 : IVec S_ 1 := constantI S_ 1 1#1
  let main_v12 : IVec S_ 1 := (fun x v => Host.reduce IntOp.andi x v reducesTo_S3072x12288_S_d0_1 h_S_) main_v11 main_c_3
  let main_v13 : IVec S_ 1 := andi main_v8 main_v12
  main_v13
-- ==== Kernel.lean ====
abbrev S1024x12288 : Shape := ⟨2, ![1024, 12288]⟩
abbrev S3072x12288 : Shape := ⟨2, ![3072, 12288]⟩
abbrev S96x12288 : Shape := ⟨2, ![96, 12288]⟩
abbrev S96 : Shape := ⟨1, ![96]⟩
abbrev S96x1 : Shape := ⟨2, ![96, 1]⟩
abbrev S1024x3072 : Shape := ⟨2, ![1024, 3072]⟩
abbrev S512x1024 : Shape := ⟨2, ![512, 1024]⟩
abbrev S3072x1024 : Shape := ⟨2, ![3072, 1024]⟩
abbrev S512x3072 : Shape := ⟨2, ![512, 3072]⟩
abbrev S1024x512x6 : Shape := ⟨3, ![1024, 512, 6]⟩

abbrev nBuf : Space → Nat
  | .hbm => 6
  | .vmem => 13
  | .smem => 0
  | _ => 0

abbrev bufTy : (tb : Table) → Fin (tcTables nBuf tb) → BufTy
  | .hbm, ⟨0, _⟩ => ⟨S1024x12288, .f32⟩
  | .hbm, ⟨1, _⟩ => ⟨S3072x12288, .f32⟩
  | .hbm, ⟨2, _⟩ => ⟨S3072x12288, .f32⟩
  | .hbm, ⟨3, _⟩ => ⟨S3072x12288, .bf16⟩
  | .hbm, ⟨4, _⟩ => ⟨S1024x3072, .f32⟩
  | .hbm, ⟨5, _⟩ => ⟨S1024x512x6, .f32⟩
  | .local _ .vmem, ⟨0, _⟩ => ⟨S96x12288, .f32⟩
  | .local _ .vmem, ⟨1, _⟩ => ⟨S96x12288, .f32⟩
  | .local _ .vmem, ⟨2, _⟩ => ⟨S96x12288, .f32⟩
  | .local _ .vmem, ⟨3, _⟩ => ⟨S96x12288, .f32⟩
  | .local _ .vmem, ⟨4, _⟩ => ⟨S96x12288, .bf16⟩
  | .local _ .vmem, ⟨5, _⟩ => ⟨S96x12288, .bf16⟩
  | .local _ .vmem, ⟨6, _⟩ => ⟨S512x1024, .f32⟩
  | .local _ .vmem, ⟨7, _⟩ => ⟨S512x1024, .f32⟩
  | .local _ .vmem, ⟨8, _⟩ => ⟨S3072x1024, .bf16⟩
  | .local _ .vmem, ⟨9, _⟩ => ⟨S3072x1024, .bf16⟩
  | .local _ .vmem, ⟨10, _⟩ => ⟨S512x3072, .f32⟩
  | .local _ .vmem, ⟨11, _⟩ => ⟨S512x3072, .f32⟩
  | .local _ .vmem, ⟨12, _⟩ => ⟨S512x3072, .f32⟩
  | _, _ => ⟨S1024x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S96x12288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S96x12288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S96x12288 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 12], ![false, false]⟩

def k1_cond2 (i : grid1.Coords) : BitVec 1 :=
  let arg1 : BitVec 32 := BitVec.ofNat 32 (i 1).val
  let c11_i32 : BitVec 32 := 11#32
  let v13 : BitVec 1 := Scalar.cmpi .eq arg1 c11_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S3072x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x3072 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S96x12288_S96x12288_0_0 : ∀ a, (![0, 0] : Fin 2 → Nat) a + S96x12288.size a ≤ S96x12288.size a
  h_S96x12288 : 0 < S96x12288.numel
  reduces_S96x12288_S96 : S96x12288.Reduces [1] S96
  shapeCasts_S96_S96x1 : S96.ShapeCasts S96x1
  broadcasts_S96x1_S96x12288 : S96x1.Broadcasts S96x12288
  bitsLt_bf16_f32 : FTy.bits .bf16 < FTy.bits .f32
  packedbf16_S96x12288_S96x12288_0_0 : (Rect.unit (s := S96x12288) ![0, 0] S96x12288.size inb_S96x12288_S96x12288_0_0).PackedRows (EltTy.packing .bf16)
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  inb_S512x1024_S512x1024_0_0 : ∀ a, (![0, 0] : Fin 2 → Nat) a + S512x1024.size a ≤ S512x1024.size a
  h_S512x1024 : 0 < S512x1024.numel
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  shapeCasts_S1024x3072_S1024x512x6 : S1024x3072.ShapeCasts S1024x512x6
  dot_S512x1024_S3072x1024_S512x3072_1_1_0_0_n_n_wf : DotDims.WF S512x1024 S3072x1024 S512x3072 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S96x12288.size a ≤ S3072x12288.size a
  hwx0_0 : ∀ i : grid0.Coords, EltTy.bits .f32 = 32 ∨ (Rect.block (s := S3072x12288) S96x12288.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S96x12288.size a ≤ S3072x12288.size a
  hwx0_1 : ∀ i : grid0.Coords, EltTy.bits .f32 = 32 ∨ (Rect.block (s := S3072x12288) S96x12288.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S96x12288.size a ≤ S3072x12288.size a
  hwx0_2 : ∀ i : grid0.Coords, EltTy.bits .bf16 = 32 ∨ (Rect.block (s := S3072x12288) S96x12288.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S1024x12288.size a
  hwx1_0 : ∀ i : grid1.Coords, EltTy.bits .f32 = 32 ∨ (Rect.block (s := S1024x12288) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3072x1024.size a ≤ S3072x12288.size a
  hwx1_1 : ∀ i : grid1.Coords, EltTy.bits .bf16 = 32 ∨ (Rect.block (s := S3072x12288) S3072x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x3072.size a ≤ S1024x3072.size a
  hwx1_2 : ∀ i : grid1.Coords, EltTy.bits .f32 = 32 ∨ (Rect.block (s := S1024x3072) S512x3072.size (cc1_transform_2 i) (hinb1_2 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf

abbrev win0_0 : Pipeline.Window sig grid0 :=
  Pipeline.Window.ofSpec (Memref.whole main_arg1) S96x12288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S96x12288.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S96x12288.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S3072x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x3072.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S1024x12288 : Shape := ⟨2, ![1024, 12288]⟩
abbrev S3072x12288 : Shape := ⟨2, ![3072, 12288]⟩
abbrev S_ : Shape := ⟨0, ![]⟩
abbrev S3072 : Shape := ⟨1, ![3072]⟩
abbrev S3072x1 : Shape := ⟨2, ![3072, 1]⟩
abbrev S12288x3072 : Shape := ⟨2, ![12288, 3072]⟩
abbrev S1024x3072 : Shape := ⟨2, ![1024, 3072]⟩
abbrev S1024x512x6 : Shape := ⟨3, ![1024, 512, 6]⟩

abbrev nBuf : Space → Nat
  | .hbm => 13
  | .vmem => 0
  | .smem => 0
  | _ => 0

abbrev bufTy : (tb : Table) → Fin (tcTables nBuf tb) → BufTy
  | .hbm, ⟨0, _⟩ => ⟨S1024x12288, .f32⟩
  | .hbm, ⟨1, _⟩ => ⟨S3072x12288, .f32⟩
  | .hbm, ⟨2, _⟩ => ⟨S3072x12288, .f32⟩
  | .hbm, ⟨3, _⟩ => ⟨S3072x12288, .f32⟩
  | .hbm, ⟨4, _⟩ => ⟨S3072x12288, .f32⟩
  | .hbm, ⟨5, _⟩ => ⟨S_, .f32⟩
  | .hbm, ⟨6, _⟩ => ⟨S3072, .f32⟩
  | .hbm, ⟨7, _⟩ => ⟨S3072x1, .f32⟩
  | .hbm, ⟨8, _⟩ => ⟨S3072x12288, .f32⟩
  | .hbm, ⟨9, _⟩ => ⟨S3072x12288, .f32⟩
  | .hbm, ⟨10, _⟩ => ⟨S12288x3072, .f32⟩
  | .hbm, ⟨11, _⟩ => ⟨S1024x3072, .f32⟩
  | .hbm, ⟨12, _⟩ => ⟨S1024x512x6, .f32⟩
  | _, _ => ⟨S1024x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  reducesTo_S3072x12288_S3072_d1 : S3072x12288.ReducesTo [1] S3072
  h_S_ : 0 < S_.numel
  bcast_S3072_S3072x1_0 : S3072.BroadcastsInDim S3072x1 (![0] : Fin 1 → Fin S3072x1.rank)
  bcast_S3072x1_S3072x12288_0_1 : S3072x1.BroadcastsInDim S3072x12288 (![0, 1] : Fin 2 → Fin S3072x12288.rank)
  transposes_S3072x12288_S12288x3072_1_0 : S3072x12288.Transposes [1, 0] S12288x3072
  shapeCasts_S1024x3072_S1024x512x6 : S1024x3072.ShapeCasts S1024x512x6
  dot_S1024x12288_S12288x3072_S1024x3072_1_0_0_1_n_n_wf : DotDims.WF S1024x12288 S12288x3072 S1024x3072 [1] [0] [0] [1] [] []

variable [Facts₀]

def dot_S1024x12288_S12288x3072_S1024x3072_1_0_0_1_n_n : DotDims S1024x12288 S12288x3072 S1024x3072 where
  lhsContracting := [1]
  rhsContracting := [0]
  lhsNonContracting := [0]
  rhsNonContracting := [1]
  lhsBatch := []
  rhsBatch := []
  wf := dot_S1024x12288_S12288x3072_S1024x3072_1_0_0_1_n_n_wf

class Facts : Prop extends Facts₀ where

variable [Facts]
-- ==== Proof.K.Norm.lean ====
/-
  The first region: every block of 96 rows of the two weight arrays is turned into the block of normalised weights.

  At a grid point `t` the body reads the two staged blocks (rows 96·t … 96·t+95, all 12288 columns), forms
  exp(w)·mask, divides every entry by its row's total, and stores the whole 96 × 12288 result. Nothing is kept between
  points and the one store covers the output buffer, so what the buffer holds afterwards is one pure function
  (`normBlock`) of the two input blocks. Everything is stated for any contents `V` the region is entered from.
-/
import proofs.«114731_j63780264346270_1_alg».proof.Proof.Gen.Kernel.Launch
import proofs.«114731_j63780264346270_1_alg».proof.Proof.Gen.Kernel.Skeleton
import proofs.«114731_j63780264346270_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The same for the second input. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The one rectangle the body loads and stores through: the whole 96 × 12288 buffer. -/
abbrev rAll0 : Rect S96x12288 := Rect.unit (s := S96x12288) ![0, 0] S96x12288.size inb_S96x12288_S96x12288_0_0

/-- What the output buffer holds after the body, from the two input blocks: the normalised block, as the canon of
    the body's one store. -/
def normBlock (x0 x1 : Vec F S96x12288 .f32) : Vec F S96x12288 .bf16 :=
  View.canon [⟨rAll0, k0_pay1 (View.ld x0 rAll0) (View.ld x1 rAll0)⟩]

/-- The one store covers the buffer. -/
theorem normCover (p0 : Vec F S96x12288 .bf16) (y : S96x12288.Idx) :
    ∃ pc ∈ ([⟨rAll0, p0⟩] : List (View.Piece (Elt F) S96x12288 .bf16)), y ∈ pc.1.set :=
  View.cover_of_tiled [⟨rAll0, p0⟩] S96x12288.size (by rfl) y

set_option maxHeartbeats 1000000 in
/-- The body on whole staging buffers, the inputs' at contents `x0`, `x1` and the output's at anything, runs to the
    end leaving the inputs as they were and the output at `normBlock x0 x1`. -/
theorem normRun (c : Dev nD) (E : Set ℕ) (i : grid0.Coords) (arg1 : Memref sig .tc .vmem S96x12288 .f32) (harg1 : arg1.IsWhole)
    (arg2 : Memref sig .tc .vmem S96x12288 .f32) (harg2 : arg2.IsWhole) (arg3 : Memref sig .tc .vmem S96x12288 .bf16) (harg3 : arg3.IsWhole)
    (x0 x1 : Vec F S96x12288 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (normBlock x0 x1)) -∗ K ⟨⟩))
      ⊢ wp frame (wpE (defs₀ (F := F)) Variants.none c none) E (cc0__normalize_kernel i arg1 harg1 arg2 harg2 arg3 harg3) K := by
  simp only [cc0__normalize_kernel_eq_skeleton]; unfold cc0__normalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (normCover _)

/-- The proof data of the first pipeline on core `c`: the arrays as the region finds them; after the body each
    input's buffer at its block and the output's at the normalised block; the invariant is the untouched rest; nothing
    owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => normBlock (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = normBlock (blk0 V c 0 t) (blk0 V c 1 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `normRun` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (normRun c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.K.AccRuns.lean ====
/-
  The second region: the product of the batch rows with the normalised weight rows, accumulated over twelve column
  blocks.

  The grid is 2 × 12: point `t` has batch block `t / 12` and column block `t % 12`. At every point the body adds, into a
  512 × 3072 scratch accumulator, the product of the staged 512 × 1024 block of `x` with the transposed staged
  3072 × 1024 block of the weights; at a column block 0 it first sets the accumulator to zero, and at column block 11 it
  copies the accumulator into the output's staging buffer, which is written back at those points only. So there are
  three kinds of point — first (reset, add), middle (add), last (add, copy out) — and what the accumulator holds after a
  point is defined by recursion on the point (`outsAt`): after a first point from the blocks alone, after any other from
  the blocks and what the point before left. The region's invariant carries the accumulator at that value from one
  point to the next. Everything is stated for any contents `V` the region is entered from.
-/
import proofs.«114731_j63780264346270_1_alg».proof.Proof.Gen.Kernel.Launch
import proofs.«114731_j63780264346270_1_alg».proof.Proof.Gen.Kernel.Skeleton
import proofs.«114731_j63780264346270_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The same for the second input. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

end

/-! ## The two conditions of the body, over the grid -/

/-- "This is the first column block": the body's first branch condition, from the grid coordinates. -/
abbrev isFirst (i : grid1.Coords) : Prop := (Scalar.cmpi .ne (Scalar.extui (Scalar.cmpi .eq (BitVec.ofNat 32 (i 1).val) 0#32)) 0#32) = 1#1
/-- It holds exactly at the points whose column block is 0. -/
theorem isFirst_iff : ∀ t : Fin cfg1.N, isFirst (grid1.coords t) ↔ t.val % 12 = 0 :=
  (by decide +kernel : ∀ t : Fin grid1.N, isFirst (grid1.coords t) ↔ t.val % 12 = 0)

/-- "This is the last column block": the body's second branch condition. -/
abbrev isLast (i : grid1.Coords) : Prop := k1_cond2 i = 1#1
/-- It holds exactly at the points whose column block is 11. -/
theorem isLast_iff : ∀ t : Fin cfg1.N, isLast (grid1.coords t) ↔ t.val % 12 = 11 :=
  (by decide +kernel : ∀ t : Fin grid1.N, isLast (grid1.coords t) ↔ t.val % 12 = 11)

/-- The input windows are never idle. -/
theorem live1_0 : ∀ t : Fin cfg1.N, cfg1.idle 0 (grid1.coords t) = false := by decide +kernel
theorem live1_1 : ∀ t : Fin cfg1.N, cfg1.idle 1 (grid1.coords t) = false := by decide +kernel
/-- Away from a last column block the output window is idle (nothing is stored into it) and is not written back. -/
theorem idle1_2 : ∀ t : Fin cfg1.N, ¬isLast (grid1.coords t) → cfg1.idle 2 (grid1.coords t) = true := by decide +kernel
theorem noFlush1_2 : ∀ t : Fin cfg1.N, ¬isLast (grid1.coords t) → (cfg1.win 2).flush t = false := by decide +kernel
/-- At a last column block it is live. -/
theorem live1_2 : ∀ t : Fin cfg1.N, isLast (grid1.coords t) → cfg1.idle 2 (grid1.coords t) = false := by decide +kernel

/-! ## The memrefs the body is called with -/

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3072x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x3072 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev accM : Memref sig .tc .vmem S512x3072 .f32 := Memref.whole cc1_scratch0
/-- The views through which the accumulator's and the output buffer's contents are stated. -/
abbrev accV : View sig .tc .vmem S512x3072 .f32 := accM.view
abbrev outV : View sig .tc .vmem S512x3072 .f32 := (Memref.whole cc1_stg2_0 : Memref sig .tc .vmem S512x3072 .f32).view

/-- Every scoped buffer of the core that is neither a staging buffer of this region nor the accumulator, at some
    contents each: carried through the region unopened. -/
abbrev restBut (c : Dev nD) : sProp 𝕄 :=
  Pipeline.scopedRestBut (Ix := Unit) (Name := ℕ) (U := UR sig nD τ) (Lvl := ℕ) (Val := Elt F) spec1 c [cc1_scratch0]

/-- The untouched rest the region is handed, with the accumulator split out as a memref owned at some contents. -/
theorem PhiA1_eq (c : Dev nD) :
    (Pipeline.ΦA spec1 c : sProp 𝕄)
      = iprop(iprop((∃ d, owns (c : Thread nD τ) accM fullShare d) ∗ restBut c) ∗ (∃ r, prngReg c r)) := by
  unfold Pipeline.ΦA
  rw [Pipeline.scopedRest_split_of_list spec1 c [cc1_scratch0] (by decide) (by decide)]
  simp only [accM, owns_whole]; try rfl

/-! ## The body's runs, one per kind of point -/

set_option maxHeartbeats 2000000 in
/-- AT A FIRST COLUMN BLOCK (reset, add; nothing copied out). The pieces the accumulator ends with, with the proof
    that on whole buffers — the inputs' at `x0`, `x1`, the idle output's at `xi` handed back untouched, the accumulator at
    anything — the body runs to the end leaving the accumulator with those pieces written. -/
noncomputable def runFirst (c : Dev nD) (i : grid1.Coords) (arg2 : Memref sig .tc .vmem S512x1024 .f32) (harg2 : arg2.IsWhole)
    (arg3 : Memref sig .tc .vmem S3072x1024 .bf16) (harg3 : arg3.IsWhole) (arg4 : Memref sig .tc .vmem S512x3072 .f32) (harg4 : arg4.IsWhole)
    (arg5 : Memref sig .tc .vmem S512x3072 .f32) (harg5 : arg5.IsWhole) (hc0 : isFirst i) (hc1 : ¬isLast i)
    (x0 : Vec F S512x1024 .f32) (x1 : Vec F S3072x1024 .bf16) :
    { LS : List (View.Piece (Elt F) S512x3072 .f32) //
      ∀ (xi : Vec F S512x3072 .f32) (E : Set ℕ) (K : PUnit → sProp 𝕄),
        iprop(owns (c : Thread nD τ) arg2 fullShare x0 ∗ owns (c : Thread nD τ) arg3 fullShare x1 ∗ owns (c : Thread nD τ) arg4 fullShare xi
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc1__matmul_kernel i arg2 harg2 arg3 harg3 arg4 harg4 arg5 harg5) K } := by
  refine ⟨?_, fun xi E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 2000000 in
/-- AT A MIDDLE COLUMN BLOCK (add only). As `runFirst`, the accumulator entering at the contents `xs` the point before
    left. -/
noncomputable def runMid (c : Dev nD) (i : grid1.Coords) (arg2 : Memref sig .tc .vmem S512x1024 .f32) (harg2 : arg2.IsWhole)
    (arg3 : Memref sig .tc .vmem S3072x1024 .bf16) (harg3 : arg3.IsWhole) (arg4 : Memref sig .tc .vmem S512x3072 .f32) (harg4 : arg4.IsWhole)
    (arg5 : Memref sig .tc .vmem S512x3072 .f32) (harg5 : arg5.IsWhole) (hc0 : ¬isFirst i) (hc1 : ¬isLast i)
    (x0 : Vec F S512x1024 .f32) (x1 : Vec F S3072x1024 .bf16) (xs : Vec F S512x3072 .f32) :
    { LS : List (View.Piece (Elt F) S512x3072 .f32) //
      ∀ (xi : Vec F S512x3072 .f32) (E : Set ℕ) (K : PUnit → sProp 𝕄),
        iprop(owns (c : Thread nD τ) arg2 fullShare x0 ∗ owns (c : Thread nD τ) arg3 fullShare x1 ∗ owns (c : Thread nD τ) arg4 fullShare xi
            ∗ owns (c : Thread nD τ) arg5 fullShare xs
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc1__matmul_kernel i arg2 harg2 arg3 harg3 arg4 harg4 arg5 harg5) K } := by
  refine ⟨?_, fun xi E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 2000000 in
/-- AT A LAST COLUMN BLOCK (add, copy out). The pieces the output's buffer and the accumulator end with, the output's
    buffer entering at anything. -/
noncomputable def runLast (c : Dev nD) (i : grid1.Coords) (arg2 : Memref sig .tc .vmem S512x1024 .f32) (harg2 : arg2.IsWhole)
    (arg3 : Memref sig .tc .vmem S3072x1024 .bf16) (harg3 : arg3.IsWhole) (arg4 : Memref sig .tc .vmem S512x3072 .f32) (harg4 : arg4.IsWhole)
    (arg5 : Memref sig .tc .vmem S512x3072 .f32) (harg5 : arg5.IsWhole) (hc0 : ¬isFirst i) (hc1 : isLast i)
    (x0 : Vec F S512x1024 .f32) (x1 : Vec F S3072x1024 .bf16) (xs : Vec F S512x3072 .f32) :
    Σ' (LO : List (View.Piece (Elt F) S512x3072 .f32)), { LS : List (View.Piece (Elt F) S512x3072 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc1__matmul_kernel i arg2 harg2 arg3 harg3 arg4 harg4 arg5 harg5) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-! ## What each kind of point leaves -/

/-- The accumulator's pieces after a first column block cover it. -/
theorem coverFirst (c : Dev nD) (i : grid1.Coords) (arg2 : Memref sig .tc .vmem S512x1024 .f32) (harg2 : arg2.IsWhole)
    (arg3 : Memref sig .tc .vmem S3072x1024 .bf16) (harg3 : arg3.IsWhole) (arg4 : Memref sig .tc .vmem S512x3072 .f32) (harg4 : arg4.IsWhole)
    (arg5 : Memref sig .tc .vmem S512x3072 .f32) (harg5 : arg5.IsWhole) (hc0 : isFirst i) (hc1 : ¬isLast i)
    (x0 : Vec F S512x1024 .f32) (x1 : Vec F S3072x1024 .bf16) (y : S512x3072.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S512x3072.size (by sl_kernel_rfl) y

/-- What a first column block leaves in the accumulator: its pieces read back. -/
def accFirst (c : Dev nD) (i : grid1.Coords) (arg2 : Memref sig .tc .vmem S512x1024 .f32) (harg2 : arg2.IsWhole)
    (arg3 : Memref sig .tc .vmem S3072x1024 .bf16) (harg3 : arg3.IsWhole) (arg4 : Memref sig .tc .vmem S512x3072 .f32) (harg4 : arg4.IsWhole)
    (arg5 : Memref sig .tc .vmem S512x3072 .f32) (harg5 : arg5.IsWhole) (hc0 : isFirst i) (hc1 : ¬isLast i)
    (x0 : Vec F S512x1024 .f32) (x1 : Vec F S3072x1024 .bf16) : Vec F S512x3072 .f32 :=
  accV.read (Elt F) (accV.writes (Elt F) accV.junk (runFirst c i arg2 harg2 arg3 harg3 arg4 harg4 arg5 harg5 hc0 hc1 x0 x1).1)

theorem coverMid (c : Dev nD) (i : grid1.Coords) (arg2 : Memref sig .tc .vmem S512x1024 .f32) (harg2 : arg2.IsWhole)
    (arg3 : Memref sig .tc .vmem S3072x1024 .bf16) (harg3 : arg3.IsWhole) (arg4 : Memref sig .tc .vmem S512x3072 .f32) (harg4 : arg4.IsWhole)
    (arg5 : Memref sig .tc .vmem S512x3072 .f32) (harg5 : arg5.IsWhole) (hc0 : ¬isFirst i) (hc1 : ¬isLast i)
    (x0 : Vec F S512x1024 .f32) (x1 : Vec F S3072x1024 .bf16) (xs : Vec F S512x3072 .f32) (y : S512x3072.Idx) :
    ∃ pc ∈ (runMid c i arg2 harg2 arg3 harg3 arg4 harg4 arg5 harg5 hc0 hc1 x0 x1 xs).1, y ∈ pc.1.set :=
  View.cover_of_tiledL (runMid c i arg2 harg2 arg3 harg3 arg4 harg4 arg5 harg5 hc0 hc1 x0 x1 xs).1 S512x3072.size (by sl_kernel_rfl) y

/-- What a middle column block leaves in the accumulator. -/
def accMid (c : Dev nD) (i : grid1.Coords) (arg2 : Memref sig .tc .vmem S512x1024 .f32) (harg2 : arg2.IsWhole)
    (arg3 : Memref sig .tc .vmem S3072x1024 .bf16) (harg3 : arg3.IsWhole) (arg4 : Memref sig .tc .vmem S512x3072 .f32) (harg4 : arg4.IsWhole)
    (arg5 : Memref sig .tc .vmem S512x3072 .f32) (harg5 : arg5.IsWhole) (hc0 : ¬isFirst i) (hc1 : ¬isLast i)
    (x0 : Vec F S512x1024 .f32) (x1 : Vec F S3072x1024 .bf16) (xs : Vec F S512x3072 .f32) : Vec F S512x3072 .f32 :=
  accV.read (Elt F) (accV.writes (Elt F) accV.junk (runMid c i arg2 harg2 arg3 harg3 arg4 harg4 arg5 harg5 hc0 hc1 x0 x1 xs).1)

theorem coverLastO (c : Dev nD) (i : grid1.Coords) (arg2 : Memref sig .tc .vmem S512x1024 .f32) (harg2 : arg2.IsWhole)
    (arg3 : Memref sig .tc .vmem S3072x1024 .bf16) (harg3 : arg3.IsWhole) (arg4 : Memref sig .tc .vmem S512x3072 .f32) (harg4 : arg4.IsWhole)
    (arg5 : Memref sig .tc .vmem S512x3072 .f32) (harg5 : arg5.IsWhole) (hc0 : ¬isFirst i) (hc1 : isLast i)
    (x0 : Vec F S512x1024 .f32) (x1 : Vec F S3072x1024 .bf16) (xs : Vec F S512x3072 .f32) (y : S512x3072.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S512x3072.size (by sl_kernel_rfl) y

/-- What a last column block leaves in the output's staging buffer. -/
def outLast (c : Dev nD) (i : grid1.Coords) (arg2 : Memref sig .tc .vmem S512x1024 .f32) (harg2 : arg2.IsWhole)
    (arg3 : Memref sig .tc .vmem S3072x1024 .bf16) (harg3 : arg3.IsWhole) (arg4 : Memref sig .tc .vmem S512x3072 .f32) (harg4 : arg4.IsWhole)
    (arg5 : Memref sig .tc .vmem S512x3072 .f32) (harg5 : arg5.IsWhole) (hc0 : ¬isFirst i) (hc1 : isLast i)
    (x0 : Vec F S512x1024 .f32) (x1 : Vec F S3072x1024 .bf16) (xs : Vec F S512x3072 .f32) : Vec F S512x3072 .f32 :=
  outV.read (Elt F) (outV.writes (Elt F) outV.junk (runLast c i arg2 harg2 arg3 harg3 arg4 harg4 arg5 harg5 hc0 hc1 x0 x1 xs).1)

theorem coverLastS (c : Dev nD) (i : grid1.Coords) (arg2 : Memref sig .tc .vmem S512x1024 .f32) (harg2 : arg2.IsWhole)
    (arg3 : Memref sig .tc .vmem S3072x1024 .bf16) (harg3 : arg3.IsWhole) (arg4 : Memref sig .tc .vmem S512x3072 .f32) (harg4 : arg4.IsWhole)
    (arg5 : Memref sig .tc .vmem S512x3072 .f32) (harg5 : arg5.IsWhole) (hc0 : ¬isFirst i) (hc1 : isLast i)
    (x0 : Vec F S512x1024 .f32) (x1 : Vec F S3072x1024 .bf16) (xs : Vec F S512x3072 .f32) (y : S512x3072.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S512x3072.size (by sl_kernel_rfl) y

/-- What a last column block leaves in the accumulator. -/
def accLast (c : Dev nD) (i : grid1.Coords) (arg2 : Memref sig .tc .vmem S512x1024 .f32) (harg2 : arg2.IsWhole)
    (arg3 : Memref sig .tc .vmem S3072x1024 .bf16) (harg3 : arg3.IsWhole) (arg4 : Memref sig .tc .vmem S512x3072 .f32) (harg4 : arg4.IsWhole)
    (arg5 : Memref sig .tc .vmem S512x3072 .f32) (harg5 : arg5.IsWhole) (hc0 : ¬isFirst i) (hc1 : isLast i)
    (x0 : Vec F S512x1024 .f32) (x1 : Vec F S3072x1024 .bf16) (xs : Vec F S512x3072 .f32) : Vec F S512x3072 .f32 :=
  accV.read (Elt F) (accV.writes (Elt F) accV.junk (runLast c i arg2 harg2 arg3 harg3 arg4 harg4 arg5 harg5 hc0 hc1 x0 x1 xs).2.1)

end Cert.Kernel.Hand

end
-- ==== Proof.K.Acc.lean ====
/-
  The second region, continued: what the accumulator and the output's buffer hold after each point, the region's
  invariant, the proof data and the body obligation.

  `outsAt n` is the pair (output buffer, accumulator) after point `n`, by recursion on `n`: a first column block
  (`n % 12 = 0`) starts from the blocks alone, any other point takes the accumulator the point before left. The output
  component matters only at the last column blocks (`n % 12 = 11`), the only points where the buffer is written back.
  The invariant before point `n + 1` holds the accumulator at `(outsAt n).2`.
-/
import proofs.«114731_j63780264346270_1_alg».proof.Proof.Gen.Kernel.Launch
import proofs.«114731_j63780264346270_1_alg».proof.Proof.Gen.Kernel.Skeleton
import proofs.«114731_j63780264346270_1_alg».proof.Proof.Gen.Kernel.Points
import proofs.«114731_j63780264346270_1_alg».proof.Proof.K.AccRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The accumulator after a first-column-block point `t`, from the point's blocks. -/
def firstAt (c : Dev nD) (t : Fin cfg1.N) (h0 : t.val % 12 = 0) (h1 : ¬t.val % 12 = 11) : Vec F S512x3072 .f32 :=
  accFirst c (grid1.coords t) (ms1_0 t) (hs1_0 t) (ms1_1 t) (hs1_1 t) (ms1_2 t) (hs1_2 t) accM (Memref.isWhole_whole _)
    ((isFirst_iff t).mpr h0) (fun h => h1 ((isLast_iff t).mp h)) (blk1 V c 0 t) (blk1 V c 1 t)

/-- The accumulator after a middle point `t`, from the point's blocks and what the point before left (`xs`). -/
def midAt (c : Dev nD) (t : Fin cfg1.N) (h0 : ¬t.val % 12 = 0) (h1 : ¬t.val % 12 = 11) (xs : Vec F S512x3072 .f32) : Vec F S512x3072 .f32 :=
  accMid c (grid1.coords t) (ms1_0 t) (hs1_0 t) (ms1_1 t) (hs1_1 t) (ms1_2 t) (hs1_2 t) accM (Memref.isWhole_whole _)
    (fun h => h0 ((isFirst_iff t).mp h)) (fun h => h1 ((isLast_iff t).mp h)) (blk1 V c 0 t) (blk1 V c 1 t) xs

/-- The output's buffer after a last-column-block point `t`. -/
def lastOAt (c : Dev nD) (t : Fin cfg1.N) (h0 : ¬t.val % 12 = 0) (h1 : t.val % 12 = 11) (xs : Vec F S512x3072 .f32) : Vec F S512x3072 .f32 :=
  outLast c (grid1.coords t) (ms1_0 t) (hs1_0 t) (ms1_1 t) (hs1_1 t) (ms1_2 t) (hs1_2 t) accM (Memref.isWhole_whole _)
    (fun h => h0 ((isFirst_iff t).mp h)) ((isLast_iff t).mpr h1) (blk1 V c 0 t) (blk1 V c 1 t) xs

/-- The accumulator after a last-column-block point `t`. -/
def lastSAt (c : Dev nD) (t : Fin cfg1.N) (h0 : ¬t.val % 12 = 0) (h1 : t.val % 12 = 11) (xs : Vec F S512x3072 .f32) : Vec F S512x3072 .f32 :=
  accLast c (grid1.coords t) (ms1_0 t) (hs1_0 t) (ms1_1 t) (hs1_1 t) (ms1_2 t) (hs1_2 t) accM (Memref.isWhole_whole _)
    (fun h => h0 ((isFirst_iff t).mp h)) ((isLast_iff t).mpr h1) (blk1 V c 0 t) (blk1 V c 1 t) xs

/-- THE ACCUMULATION: (output buffer, accumulator) after point `n`. -/
def outsAt (c : Dev nD) : (n : ℕ) → n < cfg1.N → Vec F S512x3072 .f32 × Vec F S512x3072 .f32
  | 0, hn => (firstAt V c ⟨0, hn⟩ (Nat.zero_mod _) (by show ¬(0 % 12 = 11); decide), firstAt V c ⟨0, hn⟩ (Nat.zero_mod _) (by show ¬(0 % 12 = 11); decide))
  | n + 1, hn =>
    if h0 : (n + 1) % 12 = 0 then
      (firstAt V c ⟨n + 1, hn⟩ h0 (by show ¬(n + 1) % 12 = 11; omega), firstAt V c ⟨n + 1, hn⟩ h0 (by show ¬(n + 1) % 12 = 11; omega))
    else
      if h1 : (n + 1) % 12 = 11 then
        (lastOAt V c ⟨n + 1, hn⟩ h0 h1 (outsAt c n (Nat.lt_of_succ_lt hn)).2, lastSAt V c ⟨n + 1, hn⟩ h0 h1 (outsAt c n (Nat.lt_of_succ_lt hn)).2)
      else
        (midAt V c ⟨n + 1, hn⟩ h0 h1 (outsAt c n (Nat.lt_of_succ_lt hn)).2, midAt V c ⟨n + 1, hn⟩ h0 h1 (outsAt c n (Nat.lt_of_succ_lt hn)).2)

/-- `outsAt` at a first column block. -/
theorem outsAt_first (c : Dev nD) (t : Fin cfg1.N) (h0 : t.val % 12 = 0) (h1 : ¬t.val % 12 = 11) :
    outsAt V c t.val t.isLt = (firstAt V c t h0 h1, firstAt V c t h0 h1) := by
  obtain ⟨n, hn⟩ := t
  cases n with
  | zero => exact rfl
  | succ n => exact (dif_pos h0).trans rfl

/-- `outsAt` at a middle point: over what the point before left. -/
theorem outsAt_mid (c : Dev nD) (t : Fin cfg1.N) (h0 : ¬t.val % 12 = 0) (h1 : ¬t.val % 12 = 11) :
    outsAt V c t.val t.isLt = (midAt V c t h0 h1 (outsAt V c (t.val - 1) (Nat.lt_of_le_of_lt (Nat.sub_le _ _) t.isLt)).2,
      midAt V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- `outsAt` at a last column block: over what the point before left. -/
theorem outsAt_last (c : Dev nD) (t : Fin cfg1.N) (h0 : ¬t.val % 12 = 0) (h1 : t.val % 12 = 11) :
    outsAt V c t.val t.isLt = (lastOAt V c t h0 h1 (outsAt V c (t.val - 1) (Nat.lt_of_le_of_lt (Nat.sub_le _ _) t.isLt)).2,
      lastSAt V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region invariant before position `n`: before the first point the untouched rest (the accumulator at anything);
    afterwards the accumulator at what the point before left, the other scoped buffers at anything, the generator
    register at some state. -/
def PhiS (c : Dev nD) : (n : ℕ) → n ≤ cfg1.N → sProp 𝕄
  | 0, _ => Pipeline.ΦA spec1 c
  | n + 1, hn => iprop(iprop(owns (c : Thread nD τ) accM fullShare ((outsAt V c n hn).2) ∗ restBut c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) accM fullShare ((outsAt V c n hn).2) ∗ restBut c) ∗ (∃ r, prngReg c r)) := rfl

theorem PhiS_pos (c : Dev nD) (n : ℕ) (h : n ≤ cfg1.N) (hz : n ≠ 0) :
    PhiS V c n h = iprop(iprop(owns (c : Thread nD τ) accM fullShare ((outsAt V c (n - 1) (by omega)).2) ∗ restBut c) ∗ (∃ r, prngReg c r)) := by
  cases n with
  | zero => exact absurd rfl hz
  | succ n => rfl

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => (outsAt V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = (outsAt V c t.val t.isLt).1 := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the point's column block says which kind of point
    it is; the invariant hands the body the accumulator at what the point before left (at anything at the very first
    point) and takes it back at this point's contents; away from a last column block the output's buffer is handed back
    untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  have hN : t.val < 24 := lt_of_lt_of_eq t.isLt (show cfg1.N = 24 from N_1)
  by_cases h0 : t.val % 12 = 0
  · have h1 : ¬t.val % 12 = 11 := by omega
    rw [Dat.leavesExact_idle (dat1 V c) 2 t (idle1_2 t (fun h => h1 ((isLast_iff t).mp h))) (noFlush1_2 t (fun h => h1 ((isLast_iff t).mp h)))]
    rw [outsAt_first V c t h0 h1]
    unfold firstAt accFirst; (try dsimp only)
    by_cases hz : t.val = 0
    · rw [PhiS_castSucc V c t, PhiS_zero V c _ _ hz, PhiA1_eq]
      iintro ⟨⟨⟨HS, Hrest⟩, Hg⟩, Ho, ⟨%d0, H0⟩, ⟨%d1, H1⟩, ⟨%d2, H2⟩⟩
      iapply ((runFirst c (grid1.coords t) _ _ _ _ _ _ _ _ ((isFirst_iff t).mpr h0) (fun h => h1 ((isLast_iff t).mp h)) (blk1 V c 0 t) (blk1 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (coverFirst c _ _ _ _ _ _ _ _ _ _ _ _ _)
          iexact Hrest
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS, Hrest⟩, Hg⟩, Ho, ⟨%d0, H0⟩, ⟨%d1, H1⟩, ⟨%d2, H2⟩⟩
      iapply ((runFirst c (grid1.coords t) _ _ _ _ _ _ _ _ ((isFirst_iff t).mpr h0) (fun h => h1 ((isLast_iff t).mp h)) (blk1 V c 0 t) (blk1 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (coverFirst c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun h => h0 (by rw [h])
    by_cases h1 : t.val % 12 = 11
    · rw [show (dat1 V c).leavesExact 2 t = owns (c : Thread nD τ) (ms1_2 t) fullShare ((dat1 V c).after 2 t) from by
        unfold Dat.leavesExact; rw [live1_2 t ((isLast_iff t).mpr h1)], after1_2]
      rw [outsAt_last V c t h0 h1]
      unfold lastOAt lastSAt outLast accLast; (try dsimp only)
      rw [PhiS_castSucc V c t, PhiS_pos V c _ _ hz]
      iintro ⟨⟨⟨HS, Hrest⟩, Hg⟩, Ho, ⟨%d0, H0⟩, ⟨%d1, H1⟩, ⟨%d2, H2⟩⟩
      iapply ((runLast c (grid1.coords t) _ _ _ _ _ _ _ _ (fun h => h0 ((isFirst_iff t).mp h)) ((isLast_iff t).mpr h1) (blk1 V c 0 t) (blk1 V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (coverLastS c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastO c _ _ _ _ _ _ _ _ _ _ _ _ _ _)
    · rw [Dat.leavesExact_idle (dat1 V c) 2 t (idle1_2 t (fun h => h1 ((isLast_iff t).mp h))) (noFlush1_2 t (fun h => h1 ((isLast_iff t).mp h)))]
      rw [outsAt_mid V c t h0 h1]
      unfold midAt accMid; (try dsimp only)
      rw [PhiS_castSucc V c t, PhiS_pos V c _ _ hz]
      iintro ⟨⟨⟨HS, Hrest⟩, Hg⟩, Ho, ⟨%d0, H0⟩, ⟨%d1, H1⟩, ⟨%d2, H2⟩⟩
      iapply ((runMid c (grid1.coords t) _ _ _ _ _ _ _ _ (fun h => h0 ((isFirst_iff t).mp h)) (fun h => h1 ((isLast_iff t).mp h)) (blk1 V c 0 t) (blk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (coverMid c _ _ _ _ _ _ _ _ _ _ _ _ _ _)
          iexact Hrest
        iexact Hg
      isplitl [Ho]; · iexact Ho
      isplitl [H0]; · iexact H0
      isplitl [H1]; · iexact H1
      iexists _; iexact H2

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the untouched rest back: the accumulator's value is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS, Hrest⟩, Hg⟩
  isplitl [HS Hrest]
  · isplitl [HS]
    · iexists _; iexact HS
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 24 := N_1; omega)

end

end Cert.Kernel.Hand

end
-- ==== Proof.K.Run.lean ====
/-
  The whole program as a run: the first region, the second region, the final reshape.

  The contents of the unscoped buffers are followed from the launch memory through the three items: `W0` at launch;
  `W1` after the first region (its output array at what the write-backs leave, everything else unchanged); `W2` after
  the second region likewise; `W3` after the reshape. No item writes an argument array, so each argument is read back
  through the fold to its launch contents; and the result array is the reshape of what the second region's write-backs
  leave. The regions are entered and left with every unscoped buffer held at these contents, beside the generator
  register at some state and the core owing nothing.
-/
import proofs.«114731_j63780264346270_1_alg».proof.Proof.Gen.Kernel.Launch
import proofs.«114731_j63780264346270_1_alg».proof.Proof.Gen.Kernel.Skeleton
import proofs.«114731_j63780264346270_1_alg».proof.Proof.Gen.Kernel.Points
import proofs.«114731_j63780264346270_1_alg».proof.Proof.Gen.Kernel.Regions
import proofs.«114731_j63780264346270_1_alg».proof.Proof.K.Norm
import proofs.«114731_j63780264346270_1_alg».proof.Proof.K.Acc
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- The same read at the TensorCore's references: what the first region's proof data take. -/
abbrev VA : (c : Dev nD) → (b : Ref sig .tc) → Buf (Elt F) ((c : Thread nD τ).loc b) := fun c b => W0 m c b

/-- After the first region: its arrays at what the pipeline leaves, every other buffer as entered. -/
def W1 (c : Dev nD) : Valuation τ sig (Elt F) :=
  Pipeline.withArrays spec0 c (W0 m c) fun w => (dat0 (VA m) c).arrAt w cfg0.N
theorem W1_arr (c : Dev nD) (w : Fin cfg0.W) :
    W1 m c (Proc.devRef .tc (Pipeline.arrRef spec0 w)) = (dat0 (VA m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VB : (c : Dev nD) → (b : Ref sig .tc) → Buf (Elt F) ((c : Thread nD τ).loc b) := fun c b => W1 m c b
theorem hF0 (c : Dev nD) (w : Fin cfg0.W) : (dat0 (VA m) c).arrAt w cfg0.N = VB m c (Pipeline.arrRef spec0 w) :=
  (W1_arr m c w).symm
theorem hrest0 (c : Dev nD) : ∀ b, b ∉ Finset.univ.image (Pipeline.arrRef spec0) → VB m c b = VA m c b :=
  fun b hb => W1_of_ne m c b fun w e => hb (Finset.mem_image.mpr ⟨w, Finset.mem_univ _, e⟩)

/-- After the second region. -/
def W2 (c : Dev nD) : Valuation τ sig (Elt F) :=
  Pipeline.withArrays spec1 c (W1 m c) fun w => (dat1 (VB m) c).arrAt w cfg1.N
theorem W2_arr (c : Dev nD) (w : Fin cfg1.W) :
    W2 m c (Proc.devRef .tc (Pipeline.arrRef spec1 w)) = (dat1 (VB m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev VC : (c : Dev nD) → (b : Ref sig .tc) → Buf (Elt F) ((c : Thread nD τ).loc b) := fun c b => W2 m c b
theorem hF1 (c : Dev nD) (w : Fin cfg1.W) : (dat1 (VB m) c).arrAt w cfg1.N = VC m c (Pipeline.arrRef spec1 w) :=
  (W2_arr m c w).symm
theorem hrest1 (c : Dev nD) : ∀ b, b ∉ Finset.univ.image (Pipeline.arrRef spec1) → VC m c b = VB m c b :=
  fun b hb => W2_of_ne m c b fun w e => hb (Finset.mem_image.mpr ⟨w, Finset.mem_univ _, e⟩)

/-- After the reshape. -/
abbrev W3 : Dev nD → Valuation τ sig (Elt F) := fun c => StableHlo.after hostOps2 (W2 m c)

/-- The reshape writes only the result array. -/
theorem W3_of (c : Dev nD) (r : Ref sig .tc) (h : r ∉ hostOps2_W) : W3 m c r = W2 m c r :=
  StableHlo.after_of_writes_sub hostOps2 _ hostOps2_writes h

/-! ## The arguments end as launched, and the result is the reshaped product -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of m c main_arg0 (by decide)
    _ = W1 m c (Proc.devRef .tc main_arg0) := (W2_arr m c 0).trans (((dat1 (VB m) c).arrAt_in 0 rfl _).trans (A_eq1 (VB m) c 0))
    _ = W0 m c (Proc.devRef .tc main_arg0) := W1_of_ne m c main_arg0 (by decide)
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of m c main_arg1 (by decide)
    _ = W1 m c (Proc.devRef .tc main_arg1) := W2_of_ne m c main_arg1 (by decide)
    _ = W0 m c (Proc.devRef .tc main_arg1) := (W1_arr m c 0).trans (((dat0 (VA m) c).arrAt_in 0 rfl _).trans (A_eq0 (VA m) c 0))
    _ = m ((c : Thread nD τ).loc main_arg1) := rfl

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of m c main_arg2 (by decide)
    _ = W1 m c (Proc.devRef .tc main_arg2) := W2_of_ne m c main_arg2 (by decide)
    _ = W0 m c (Proc.devRef .tc main_arg2) := (W1_arr m c 1).trans (((dat0 (VA m) c).arrAt_in 1 rfl _).trans (A_eq0 (VA m) c 1))
    _ = m ((c : Thread nD τ).loc main_arg2) := rfl

/-- The result array is the reshape of what the second region's write-backs leave in the product array. -/
theorem W3_main_v2 (c : Dev nD) :
    W3 m c (Proc.devRef .tc main_v2) = shapeCast S1024x512x6 ((dat1 (VB m) c).arrAt 2 cfg1.N) shapeCasts_S1024x3072_S1024x512x6 := by
  have e : W3 m c (Proc.devRef .tc main_v2) = shapeCast S1024x512x6 (W2 m c (Proc.devRef .tc main_v1)) shapeCasts_S1024x3072_S1024x512x6 := by
    show StableHlo.after hostOps2 (W2 m c) (Proc.devRef .tc main_v2) = _
    after_results <;> rfl
  rw [e]; exact congrArg (fun x => shapeCast S1024x512x6 x shapeCasts_S1024x3072_S1024x512x6) (W2_arr m c 2)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first region: entered with every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every unscoped buffer at `W1`, left at `W2`. The accumulator goes into the
    invariant with the other scoped buffers and comes back with them, its value forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (VB m) c
    unfold Pipeline.ΦA at h
    show _ ⊢ (dat1 (VB m) c).Φ 0
    iintro ⟨Hp, -, Hr⟩
    iapply h
    isplitl [Hr]; · iexact Hr
    iexact Hp
  hout c := by
    have h := hout1 (VB m) c
    unfold Pipeline.ΦA at h
    rw [Pipeline.ownSems0_none]
    show (dat1 (VB m) c).Φ (Fin.last cfg1.N) ⊢ _
    iintro Hf
    ihave H := h $$ Hf
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .region (reg1 m),
    .host (hseg hostOps2 hostOps2_sub hostOps2_fresh (W2 m)) ]

theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every final memory holds every unscoped buffer at `W3`. -/
theorem run_full (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME: the program runs to the end and its argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c)⟩) (run_full m ρ)

/-- THE RUN WITH THE RESULT NAMED: as the frame, and the result array ends at the reshape of what the second region's
    write-backs leave in the product array. -/
theorem run_value (ρ : Dev nD → PrngReg) : θ_run defs (onTc (τ := τ) (main (F := F))) ⟨m, fun _ => 0, ρ⟩ (fun r => ∀ c : Dev nD,
      r.2.mem ((c.tc : Thread nD τ).loc main_v2) = shapeCast S1024x512x6 ((dat1 (VB m) c).arrAt 2 cfg1.N) shapeCasts_S1024x3072_S1024x512x6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v2 (by decide))).trans (W3_main_v2 m c),
     (h c _ (mem_uc main_arg0 (by decide))).trans (W3_main_arg0 m c),
     (h c _ (mem_uc main_arg1 (by decide))).trans (W3_main_arg1 m c),
     (h c _ (mem_uc main_arg2 (by decide))).trans (W3_main_arg2 m c)⟩) (run_full m ρ)

end Cert.Kernel.Hand

end
-- ==== Proof.KI.Norm.lean ====
/-
  The first region: every block of 96 rows of the two weight arrays is turned into the block of normalised weights.

  At a grid point `t` the body reads the two staged blocks (rows 96·t … 96·t+95, all 12288 columns), forms
  exp(w)·mask, divides every entry by its row's total, and stores the whole 96 × 12288 result. Nothing is kept between
  points and the one store covers the output buffer, so what the buffer holds afterwards is one pure function
  (`normBlock`) of the two input blocks. Everything is stated for any contents `V` the region is entered from.
-/
import proofs.«114731_j63780264346270_1_alg».proof.Proof.Gen.KernelIdeal.Launch
import proofs.«114731_j63780264346270_1_alg».proof.Proof.Gen.KernelIdeal.Skeleton
import proofs.«114731_j63780264346270_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The same for the second input. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The one rectangle the body loads and stores through: the whole 96 × 12288 buffer. -/
abbrev rAll0 : Rect S96x12288 := Rect.unit (s := S96x12288) ![0, 0] S96x12288.size inb_S96x12288_S96x12288_0_0

/-- What the output buffer holds after the body, from the two input blocks: the normalised block, as the canon of
    the body's one store. -/
def normBlock (x0 x1 : Vec F S96x12288 .f32) : Vec F S96x12288 .bf16 :=
  View.canon [⟨rAll0, k0_pay1 (View.ld x0 rAll0) (View.ld x1 rAll0)⟩]

/-- The one store covers the buffer. -/
theorem normCover (p0 : Vec F S96x12288 .bf16) (y : S96x12288.Idx) :
    ∃ pc ∈ ([⟨rAll0, p0⟩] : List (View.Piece (Elt F) S96x12288 .bf16)), y ∈ pc.1.set :=
  View.cover_of_tiled [⟨rAll0, p0⟩] S96x12288.size (by rfl) y

set_option maxHeartbeats 1000000 in
/-- The body on whole staging buffers, the inputs' at contents `x0`, `x1` and the output's at anything, runs to the
    end leaving the inputs as they were and the output at `normBlock x0 x1`. -/
theorem normRun (c : Dev nD) (E : Set ℕ) (i : grid0.Coords) (arg1 : Memref sig .tc .vmem S96x12288 .f32) (harg1 : arg1.IsWhole)
    (arg2 : Memref sig .tc .vmem S96x12288 .f32) (harg2 : arg2.IsWhole) (arg3 : Memref sig .tc .vmem S96x12288 .bf16) (harg3 : arg3.IsWhole)
    (x0 x1 : Vec F S96x12288 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (normBlock x0 x1)) -∗ K ⟨⟩))
      ⊢ wp frame (wpE (defs₀ (F := F)) Variants.none c none) E (cc0__normalize_kernel i arg1 harg1 arg2 harg2 arg3 harg3) K := by
  simp only [cc0__normalize_kernel_eq_skeleton]; unfold cc0__normalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (normCover _)

/-- The proof data of the first pipeline on core `c`: the arrays as the region finds them; after the body each
    input's buffer at its block and the output's at the normalised block; the invariant is the untouched rest; nothing
    owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => normBlock (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = normBlock (blk0 V c 0 t) (blk0 V c 1 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `normRun` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (normRun c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.AccRuns.lean ====
/-
  The second region: the product of the batch rows with the normalised weight rows, accumulated over twelve column
  blocks.

  The grid is 2 × 12: point `t` has batch block `t / 12` and column block `t % 12`. At every point the body adds, into a
  512 × 3072 scratch accumulator, the product of the staged 512 × 1024 block of `x` with the transposed staged
  3072 × 1024 block of the weights; at a column block 0 it first sets the accumulator to zero, and at column block 11 it
  copies the accumulator into the output's staging buffer, which is written back at those points only. So there are
  three kinds of point — first (reset, add), middle (add), last (add, copy out) — and what the accumulator holds after a
  point is defined by recursion on the point (`outsAt`): after a first point from the blocks alone, after any other from
  the blocks and what the point before left. The region's invariant carries the accumulator at that value from one
  point to the next. Everything is stated for any contents `V` the region is entered from.
-/
import proofs.«114731_j63780264346270_1_alg».proof.Proof.Gen.KernelIdeal.Launch
import proofs.«114731_j63780264346270_1_alg».proof.Proof.Gen.KernelIdeal.Skeleton
import proofs.«114731_j63780264346270_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The same for the second input. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

end

/-! ## The two conditions of the body, over the grid -/

/-- "This is the first column block": the body's first branch condition, from the grid coordinates. -/
abbrev isFirst (i : grid1.Coords) : Prop := (Scalar.cmpi .ne (Scalar.extui (Scalar.cmpi .eq (BitVec.ofNat 32 (i 1).val) 0#32)) 0#32) = 1#1
/-- It holds exactly at the points whose column block is 0. -/
theorem isFirst_iff : ∀ t : Fin cfg1.N, isFirst (grid1.coords t) ↔ t.val % 12 = 0 :=
  (by decide +kernel : ∀ t : Fin grid1.N, isFirst (grid1.coords t) ↔ t.val % 12 = 0)

/-- "This is the last column block": the body's second branch condition. -/
abbrev isLast (i : grid1.Coords) : Prop := k1_cond2 i = 1#1
/-- It holds exactly at the points whose column block is 11. -/
theorem isLast_iff : ∀ t : Fin cfg1.N, isLast (grid1.coords t) ↔ t.val % 12 = 11 :=
  (by decide +kernel : ∀ t : Fin grid1.N, isLast (grid1.coords t) ↔ t.val % 12 = 11)

/-- The input windows are never idle. -/
theorem live1_0 : ∀ t : Fin cfg1.N, cfg1.idle 0 (grid1.coords t) = false := by decide +kernel
theorem live1_1 : ∀ t : Fin cfg1.N, cfg1.idle 1 (grid1.coords t) = false := by decide +kernel
/-- Away from a last column block the output window is idle (nothing is stored into it) and is not written back. -/
theorem idle1_2 : ∀ t : Fin cfg1.N, ¬isLast (grid1.coords t) → cfg1.idle 2 (grid1.coords t) = true := by decide +kernel
theorem noFlush1_2 : ∀ t : Fin cfg1.N, ¬isLast (grid1.coords t) → (cfg1.win 2).flush t = false := by decide +kernel
/-- At a last column block it is live. -/
theorem live1_2 : ∀ t : Fin cfg1.N, isLast (grid1.coords t) → cfg1.idle 2 (grid1.coords t) = false := by decide +kernel

/-! ## The memrefs the body is called with -/

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3072x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x3072 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev accM : Memref sig .tc .vmem S512x3072 .f32 := Memref.whole cc1_scratch0
/-- The views through which the accumulator's and the output buffer's contents are stated. -/
abbrev accV : View sig .tc .vmem S512x3072 .f32 := accM.view
abbrev outV : View sig .tc .vmem S512x3072 .f32 := (Memref.whole cc1_stg2_0 : Memref sig .tc .vmem S512x3072 .f32).view

/-- Every scoped buffer of the core that is neither a staging buffer of this region nor the accumulator, at some
    contents each: carried through the region unopened. -/
abbrev restBut (c : Dev nD) : sProp 𝕄 :=
  Pipeline.scopedRestBut (Ix := Unit) (Name := ℕ) (U := UR sig nD τ) (Lvl := ℕ) (Val := Elt F) spec1 c [cc1_scratch0]

/-- The untouched rest the region is handed, with the accumulator split out as a memref owned at some contents. -/
theorem PhiA1_eq (c : Dev nD) :
    (Pipeline.ΦA spec1 c : sProp 𝕄)
      = iprop(iprop((∃ d, owns (c : Thread nD τ) accM fullShare d) ∗ restBut c) ∗ (∃ r, prngReg c r)) := by
  unfold Pipeline.ΦA
  rw [Pipeline.scopedRest_split_of_list spec1 c [cc1_scratch0] (by decide) (by decide)]
  simp only [accM, owns_whole]; try rfl

/-! ## The body's runs, one per kind of point -/

set_option maxHeartbeats 2000000 in
/-- AT A FIRST COLUMN BLOCK (reset, add; nothing copied out). The pieces the accumulator ends with, with the proof
    that on whole buffers — the inputs' at `x0`, `x1`, the idle output's at `xi` handed back untouched, the accumulator at
    anything — the body runs to the end leaving the accumulator with those pieces written. -/
noncomputable def runFirst (c : Dev nD) (i : grid1.Coords) (arg2 : Memref sig .tc .vmem S512x1024 .f32) (harg2 : arg2.IsWhole)
    (arg3 : Memref sig .tc .vmem S3072x1024 .bf16) (harg3 : arg3.IsWhole) (arg4 : Memref sig .tc .vmem S512x3072 .f32) (harg4 : arg4.IsWhole)
    (arg5 : Memref sig .tc .vmem S512x3072 .f32) (harg5 : arg5.IsWhole) (hc0 : isFirst i) (hc1 : ¬isLast i)
    (x0 : Vec F S512x1024 .f32) (x1 : Vec F S3072x1024 .bf16) :
    { LS : List (View.Piece (Elt F) S512x3072 .f32) //
      ∀ (xi : Vec F S512x3072 .f32) (E : Set ℕ) (K : PUnit → sProp 𝕄),
        iprop(owns (c : Thread nD τ) arg2 fullShare x0 ∗ owns (c : Thread nD τ) arg3 fullShare x1 ∗ owns (c : Thread nD τ) arg4 fullShare xi
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc1__matmul_kernel i arg2 harg2 arg3 harg3 arg4 harg4 arg5 harg5) K } := by
  refine ⟨?_, fun xi E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 2000000 in
/-- AT A MIDDLE COLUMN BLOCK (add only). As `runFirst`, the accumulator entering at the contents `xs` the point before
    left. -/
noncomputable def runMid (c : Dev nD) (i : grid1.Coords) (arg2 : Memref sig .tc .vmem S512x1024 .f32) (harg2 : arg2.IsWhole)
    (arg3 : Memref sig .tc .vmem S3072x1024 .bf16) (harg3 : arg3.IsWhole) (arg4 : Memref sig .tc .vmem S512x3072 .f32) (harg4 : arg4.IsWhole)
    (arg5 : Memref sig .tc .vmem S512x3072 .f32) (harg5 : arg5.IsWhole) (hc0 : ¬isFirst i) (hc1 : ¬isLast i)
    (x0 : Vec F S512x1024 .f32) (x1 : Vec F S3072x1024 .bf16) (xs : Vec F S512x3072 .f32) :
    { LS : List (View.Piece (Elt F) S512x3072 .f32) //
      ∀ (xi : Vec F S512x3072 .f32) (E : Set ℕ) (K : PUnit → sProp 𝕄),
        iprop(owns (c : Thread nD τ) arg2 fullShare x0 ∗ owns (c : Thread nD τ) arg3 fullShare x1 ∗ owns (c : Thread nD τ) arg4 fullShare xi
            ∗ owns (c : Thread nD τ) arg5 fullShare xs
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc1__matmul_kernel i arg2 harg2 arg3 harg3 arg4 harg4 arg5 harg5) K } := by
  refine ⟨?_, fun xi E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 2000000 in
/-- AT A LAST COLUMN BLOCK (add, copy out). The pieces the output's buffer and the accumulator end with, the output's
    buffer entering at anything. -/
noncomputable def runLast (c : Dev nD) (i : grid1.Coords) (arg2 : Memref sig .tc .vmem S512x1024 .f32) (harg2 : arg2.IsWhole)
    (arg3 : Memref sig .tc .vmem S3072x1024 .bf16) (harg3 : arg3.IsWhole) (arg4 : Memref sig .tc .vmem S512x3072 .f32) (harg4 : arg4.IsWhole)
    (arg5 : Memref sig .tc .vmem S512x3072 .f32) (harg5 : arg5.IsWhole) (hc0 : ¬isFirst i) (hc1 : isLast i)
    (x0 : Vec F S512x1024 .f32) (x1 : Vec F S3072x1024 .bf16) (xs : Vec F S512x3072 .f32) :
    Σ' (LO : List (View.Piece (Elt F) S512x3072 .f32)), { LS : List (View.Piece (Elt F) S512x3072 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc1__matmul_kernel i arg2 harg2 arg3 harg3 arg4 harg4 arg5 harg5) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-! ## What each kind of point leaves -/

/-- The accumulator's pieces after a first column block cover it. -/
theorem coverFirst (c : Dev nD) (i : grid1.Coords) (arg2 : Memref sig .tc .vmem S512x1024 .f32) (harg2 : arg2.IsWhole)
    (arg3 : Memref sig .tc .vmem S3072x1024 .bf16) (harg3 : arg3.IsWhole) (arg4 : Memref sig .tc .vmem S512x3072 .f32) (harg4 : arg4.IsWhole)
    (arg5 : Memref sig .tc .vmem S512x3072 .f32) (harg5 : arg5.IsWhole) (hc0 : isFirst i) (hc1 : ¬isLast i)
    (x0 : Vec F S512x1024 .f32) (x1 : Vec F S3072x1024 .bf16) (y : S512x3072.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S512x3072.size (by sl_kernel_rfl) y

/-- What a first column block leaves in the accumulator: its pieces read back. -/
def accFirst (c : Dev nD) (i : grid1.Coords) (arg2 : Memref sig .tc .vmem S512x1024 .f32) (harg2 : arg2.IsWhole)
    (arg3 : Memref sig .tc .vmem S3072x1024 .bf16) (harg3 : arg3.IsWhole) (arg4 : Memref sig .tc .vmem S512x3072 .f32) (harg4 : arg4.IsWhole)
    (arg5 : Memref sig .tc .vmem S512x3072 .f32) (harg5 : arg5.IsWhole) (hc0 : isFirst i) (hc1 : ¬isLast i)
    (x0 : Vec F S512x1024 .f32) (x1 : Vec F S3072x1024 .bf16) : Vec F S512x3072 .f32 :=
  accV.read (Elt F) (accV.writes (Elt F) accV.junk (runFirst c i arg2 harg2 arg3 harg3 arg4 harg4 arg5 harg5 hc0 hc1 x0 x1).1)

theorem coverMid (c : Dev nD) (i : grid1.Coords) (arg2 : Memref sig .tc .vmem S512x1024 .f32) (harg2 : arg2.IsWhole)
    (arg3 : Memref sig .tc .vmem S3072x1024 .bf16) (harg3 : arg3.IsWhole) (arg4 : Memref sig .tc .vmem S512x3072 .f32) (harg4 : arg4.IsWhole)
    (arg5 : Memref sig .tc .vmem S512x3072 .f32) (harg5 : arg5.IsWhole) (hc0 : ¬isFirst i) (hc1 : ¬isLast i)
    (x0 : Vec F S512x1024 .f32) (x1 : Vec F S3072x1024 .bf16) (xs : Vec F S512x3072 .f32) (y : S512x3072.Idx) :
    ∃ pc ∈ (runMid c i arg2 harg2 arg3 harg3 arg4 harg4 arg5 harg5 hc0 hc1 x0 x1 xs).1, y ∈ pc.1.set :=
  View.cover_of_tiledL (runMid c i arg2 harg2 arg3 harg3 arg4 harg4 arg5 harg5 hc0 hc1 x0 x1 xs).1 S512x3072.size (by sl_kernel_rfl) y

/-- What a middle column block leaves in the accumulator. -/
def accMid (c : Dev nD) (i : grid1.Coords) (arg2 : Memref sig .tc .vmem S512x1024 .f32) (harg2 : arg2.IsWhole)
    (arg3 : Memref sig .tc .vmem S3072x1024 .bf16) (harg3 : arg3.IsWhole) (arg4 : Memref sig .tc .vmem S512x3072 .f32) (harg4 : arg4.IsWhole)
    (arg5 : Memref sig .tc .vmem S512x3072 .f32) (harg5 : arg5.IsWhole) (hc0 : ¬isFirst i) (hc1 : ¬isLast i)
    (x0 : Vec F S512x1024 .f32) (x1 : Vec F S3072x1024 .bf16) (xs : Vec F S512x3072 .f32) : Vec F S512x3072 .f32 :=
  accV.read (Elt F) (accV.writes (Elt F) accV.junk (runMid c i arg2 harg2 arg3 harg3 arg4 harg4 arg5 harg5 hc0 hc1 x0 x1 xs).1)

theorem coverLastO (c : Dev nD) (i : grid1.Coords) (arg2 : Memref sig .tc .vmem S512x1024 .f32) (harg2 : arg2.IsWhole)
    (arg3 : Memref sig .tc .vmem S3072x1024 .bf16) (harg3 : arg3.IsWhole) (arg4 : Memref sig .tc .vmem S512x3072 .f32) (harg4 : arg4.IsWhole)
    (arg5 : Memref sig .tc .vmem S512x3072 .f32) (harg5 : arg5.IsWhole) (hc0 : ¬isFirst i) (hc1 : isLast i)
    (x0 : Vec F S512x1024 .f32) (x1 : Vec F S3072x1024 .bf16) (xs : Vec F S512x3072 .f32) (y : S512x3072.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S512x3072.size (by sl_kernel_rfl) y

/-- What a last column block leaves in the output's staging buffer. -/
def outLast (c : Dev nD) (i : grid1.Coords) (arg2 : Memref sig .tc .vmem S512x1024 .f32) (harg2 : arg2.IsWhole)
    (arg3 : Memref sig .tc .vmem S3072x1024 .bf16) (harg3 : arg3.IsWhole) (arg4 : Memref sig .tc .vmem S512x3072 .f32) (harg4 : arg4.IsWhole)
    (arg5 : Memref sig .tc .vmem S512x3072 .f32) (harg5 : arg5.IsWhole) (hc0 : ¬isFirst i) (hc1 : isLast i)
    (x0 : Vec F S512x1024 .f32) (x1 : Vec F S3072x1024 .bf16) (xs : Vec F S512x3072 .f32) : Vec F S512x3072 .f32 :=
  outV.read (Elt F) (outV.writes (Elt F) outV.junk (runLast c i arg2 harg2 arg3 harg3 arg4 harg4 arg5 harg5 hc0 hc1 x0 x1 xs).1)

theorem coverLastS (c : Dev nD) (i : grid1.Coords) (arg2 : Memref sig .tc .vmem S512x1024 .f32) (harg2 : arg2.IsWhole)
    (arg3 : Memref sig .tc .vmem S3072x1024 .bf16) (harg3 : arg3.IsWhole) (arg4 : Memref sig .tc .vmem S512x3072 .f32) (harg4 : arg4.IsWhole)
    (arg5 : Memref sig .tc .vmem S512x3072 .f32) (harg5 : arg5.IsWhole) (hc0 : ¬isFirst i) (hc1 : isLast i)
    (x0 : Vec F S512x1024 .f32) (x1 : Vec F S3072x1024 .bf16) (xs : Vec F S512x3072 .f32) (y : S512x3072.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S512x3072.size (by sl_kernel_rfl) y

/-- What a last column block leaves in the accumulator. -/
def accLast (c : Dev nD) (i : grid1.Coords) (arg2 : Memref sig .tc .vmem S512x1024 .f32) (harg2 : arg2.IsWhole)
    (arg3 : Memref sig .tc .vmem S3072x1024 .bf16) (harg3 : arg3.IsWhole) (arg4 : Memref sig .tc .vmem S512x3072 .f32) (harg4 : arg4.IsWhole)
    (arg5 : Memref sig .tc .vmem S512x3072 .f32) (harg5 : arg5.IsWhole) (hc0 : ¬isFirst i) (hc1 : isLast i)
    (x0 : Vec F S512x1024 .f32) (x1 : Vec F S3072x1024 .bf16) (xs : Vec F S512x3072 .f32) : Vec F S512x3072 .f32 :=
  accV.read (Elt F) (accV.writes (Elt F) accV.junk (runLast c i arg2 harg2 arg3 harg3 arg4 harg4 arg5 harg5 hc0 hc1 x0 x1 xs).2.1)

end Cert.KernelIdeal.Hand

end
-- ==== Proof.KI.Acc.lean ====
/-
  The second region, continued: what the accumulator and the output's buffer hold after each point, the region's
  invariant, the proof data and the body obligation.

  `outsAt n` is the pair (output buffer, accumulator) after point `n`, by recursion on `n`: a first column block
  (`n % 12 = 0`) starts from the blocks alone, any other point takes the accumulator the point before left. The output
  component matters only at the last column blocks (`n % 12 = 11`), the only points where the buffer is written back.
  The invariant before point `n + 1` holds the accumulator at `(outsAt n).2`.
-/
import proofs.«114731_j63780264346270_1_alg».proof.Proof.Gen.KernelIdeal.Launch
import proofs.«114731_j63780264346270_1_alg».proof.Proof.Gen.KernelIdeal.Skeleton
import proofs.«114731_j63780264346270_1_alg».proof.Proof.Gen.KernelIdeal.Points
import proofs.«114731_j63780264346270_1_alg».proof.Proof.KI.AccRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The accumulator after a first-column-block point `t`, from the point's blocks. -/
def firstAt (c : Dev nD) (t : Fin cfg1.N) (h0 : t.val % 12 = 0) (h1 : ¬t.val % 12 = 11) : Vec F S512x3072 .f32 :=
  accFirst c (grid1.coords t) (ms1_0 t) (hs1_0 t) (ms1_1 t) (hs1_1 t) (ms1_2 t) (hs1_2 t) accM (Memref.isWhole_whole _)
    ((isFirst_iff t).mpr h0) (fun h => h1 ((isLast_iff t).mp h)) (blk1 V c 0 t) (blk1 V c 1 t)

/-- The accumulator after a middle point `t`, from the point's blocks and what the point before left (`xs`). -/
def midAt (c : Dev nD) (t : Fin cfg1.N) (h0 : ¬t.val % 12 = 0) (h1 : ¬t.val % 12 = 11) (xs : Vec F S512x3072 .f32) : Vec F S512x3072 .f32 :=
  accMid c (grid1.coords t) (ms1_0 t) (hs1_0 t) (ms1_1 t) (hs1_1 t) (ms1_2 t) (hs1_2 t) accM (Memref.isWhole_whole _)
    (fun h => h0 ((isFirst_iff t).mp h)) (fun h => h1 ((isLast_iff t).mp h)) (blk1 V c 0 t) (blk1 V c 1 t) xs

/-- The output's buffer after a last-column-block point `t`. -/
def lastOAt (c : Dev nD) (t : Fin cfg1.N) (h0 : ¬t.val % 12 = 0) (h1 : t.val % 12 = 11) (xs : Vec F S512x3072 .f32) : Vec F S512x3072 .f32 :=
  outLast c (grid1.coords t) (ms1_0 t) (hs1_0 t) (ms1_1 t) (hs1_1 t) (ms1_2 t) (hs1_2 t) accM (Memref.isWhole_whole _)
    (fun h => h0 ((isFirst_iff t).mp h)) ((isLast_iff t).mpr h1) (blk1 V c 0 t) (blk1 V c 1 t) xs

/-- The accumulator after a last-column-block point `t`. -/
def lastSAt (c : Dev nD) (t : Fin cfg1.N) (h0 : ¬t.val % 12 = 0) (h1 : t.val % 12 = 11) (xs : Vec F S512x3072 .f32) : Vec F S512x3072 .f32 :=
  accLast c (grid1.coords t) (ms1_0 t) (hs1_0 t) (ms1_1 t) (hs1_1 t) (ms1_2 t) (hs1_2 t) accM (Memref.isWhole_whole _)
    (fun h => h0 ((isFirst_iff t).mp h)) ((isLast_iff t).mpr h1) (blk1 V c 0 t) (blk1 V c 1 t) xs

/-- THE ACCUMULATION: (output buffer, accumulator) after point `n`. -/
def outsAt (c : Dev nD) : (n : ℕ) → n < cfg1.N → Vec F S512x3072 .f32 × Vec F S512x3072 .f32
  | 0, hn => (firstAt V c ⟨0, hn⟩ (Nat.zero_mod _) (by show ¬(0 % 12 = 11); decide), firstAt V c ⟨0, hn⟩ (Nat.zero_mod _) (by show ¬(0 % 12 = 11); decide))
  | n + 1, hn =>
    if h0 : (n + 1) % 12 = 0 then
      (firstAt V c ⟨n + 1, hn⟩ h0 (by show ¬(n + 1) % 12 = 11; omega), firstAt V c ⟨n + 1, hn⟩ h0 (by show ¬(n + 1) % 12 = 11; omega))
    else
      if h1 : (n + 1) % 12 = 11 then
        (lastOAt V c ⟨n + 1, hn⟩ h0 h1 (outsAt c n (Nat.lt_of_succ_lt hn)).2, lastSAt V c ⟨n + 1, hn⟩ h0 h1 (outsAt c n (Nat.lt_of_succ_lt hn)).2)
      else
        (midAt V c ⟨n + 1, hn⟩ h0 h1 (outsAt c n (Nat.lt_of_succ_lt hn)).2, midAt V c ⟨n + 1, hn⟩ h0 h1 (outsAt c n (Nat.lt_of_succ_lt hn)).2)

/-- `outsAt` at a first column block. -/
theorem outsAt_first (c : Dev nD) (t : Fin cfg1.N) (h0 : t.val % 12 = 0) (h1 : ¬t.val % 12 = 11) :
    outsAt V c t.val t.isLt = (firstAt V c t h0 h1, firstAt V c t h0 h1) := by
  obtain ⟨n, hn⟩ := t
  cases n with
  | zero => exact rfl
  | succ n => exact (dif_pos h0).trans rfl

/-- `outsAt` at a middle point: over what the point before left. -/
theorem outsAt_mid (c : Dev nD) (t : Fin cfg1.N) (h0 : ¬t.val % 12 = 0) (h1 : ¬t.val % 12 = 11) :
    outsAt V c t.val t.isLt = (midAt V c t h0 h1 (outsAt V c (t.val - 1) (Nat.lt_of_le_of_lt (Nat.sub_le _ _) t.isLt)).2,
      midAt V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- `outsAt` at a last column block: over what the point before left. -/
theorem outsAt_last (c : Dev nD) (t : Fin cfg1.N) (h0 : ¬t.val % 12 = 0) (h1 : t.val % 12 = 11) :
    outsAt V c t.val t.isLt = (lastOAt V c t h0 h1 (outsAt V c (t.val - 1) (Nat.lt_of_le_of_lt (Nat.sub_le _ _) t.isLt)).2,
      lastSAt V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region invariant before position `n`: before the first point the untouched rest (the accumulator at anything);
    afterwards the accumulator at what the point before left, the other scoped buffers at anything, the generator
    register at some state. -/
def PhiS (c : Dev nD) : (n : ℕ) → n ≤ cfg1.N → sProp 𝕄
  | 0, _ => Pipeline.ΦA spec1 c
  | n + 1, hn => iprop(iprop(owns (c : Thread nD τ) accM fullShare ((outsAt V c n hn).2) ∗ restBut c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) accM fullShare ((outsAt V c n hn).2) ∗ restBut c) ∗ (∃ r, prngReg c r)) := rfl

theorem PhiS_pos (c : Dev nD) (n : ℕ) (h : n ≤ cfg1.N) (hz : n ≠ 0) :
    PhiS V c n h = iprop(iprop(owns (c : Thread nD τ) accM fullShare ((outsAt V c (n - 1) (by omega)).2) ∗ restBut c) ∗ (∃ r, prngReg c r)) := by
  cases n with
  | zero => exact absurd rfl hz
  | succ n => rfl

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => (outsAt V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = (outsAt V c t.val t.isLt).1 := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the point's column block says which kind of point
    it is; the invariant hands the body the accumulator at what the point before left (at anything at the very first
    point) and takes it back at this point's contents; away from a last column block the output's buffer is handed back
    untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  have hN : t.val < 24 := lt_of_lt_of_eq t.isLt (show cfg1.N = 24 from N_1)
  by_cases h0 : t.val % 12 = 0
  · have h1 : ¬t.val % 12 = 11 := by omega
    rw [Dat.leavesExact_idle (dat1 V c) 2 t (idle1_2 t (fun h => h1 ((isLast_iff t).mp h))) (noFlush1_2 t (fun h => h1 ((isLast_iff t).mp h)))]
    rw [outsAt_first V c t h0 h1]
    unfold firstAt accFirst; (try dsimp only)
    by_cases hz : t.val = 0
    · rw [PhiS_castSucc V c t, PhiS_zero V c _ _ hz, PhiA1_eq]
      iintro ⟨⟨⟨HS, Hrest⟩, Hg⟩, Ho, ⟨%d0, H0⟩, ⟨%d1, H1⟩, ⟨%d2, H2⟩⟩
      iapply ((runFirst c (grid1.coords t) _ _ _ _ _ _ _ _ ((isFirst_iff t).mpr h0) (fun h => h1 ((isLast_iff t).mp h)) (blk1 V c 0 t) (blk1 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (coverFirst c _ _ _ _ _ _ _ _ _ _ _ _ _)
          iexact Hrest
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS, Hrest⟩, Hg⟩, Ho, ⟨%d0, H0⟩, ⟨%d1, H1⟩, ⟨%d2, H2⟩⟩
      iapply ((runFirst c (grid1.coords t) _ _ _ _ _ _ _ _ ((isFirst_iff t).mpr h0) (fun h => h1 ((isLast_iff t).mp h)) (blk1 V c 0 t) (blk1 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (coverFirst c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun h => h0 (by rw [h])
    by_cases h1 : t.val % 12 = 11
    · rw [show (dat1 V c).leavesExact 2 t = owns (c : Thread nD τ) (ms1_2 t) fullShare ((dat1 V c).after 2 t) from by
        unfold Dat.leavesExact; rw [live1_2 t ((isLast_iff t).mpr h1)], after1_2]
      rw [outsAt_last V c t h0 h1]
      unfold lastOAt lastSAt outLast accLast; (try dsimp only)
      rw [PhiS_castSucc V c t, PhiS_pos V c _ _ hz]
      iintro ⟨⟨⟨HS, Hrest⟩, Hg⟩, Ho, ⟨%d0, H0⟩, ⟨%d1, H1⟩, ⟨%d2, H2⟩⟩
      iapply ((runLast c (grid1.coords t) _ _ _ _ _ _ _ _ (fun h => h0 ((isFirst_iff t).mp h)) ((isLast_iff t).mpr h1) (blk1 V c 0 t) (blk1 V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (coverLastS c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastO c _ _ _ _ _ _ _ _ _ _ _ _ _ _)
    · rw [Dat.leavesExact_idle (dat1 V c) 2 t (idle1_2 t (fun h => h1 ((isLast_iff t).mp h))) (noFlush1_2 t (fun h => h1 ((isLast_iff t).mp h)))]
      rw [outsAt_mid V c t h0 h1]
      unfold midAt accMid; (try dsimp only)
      rw [PhiS_castSucc V c t, PhiS_pos V c _ _ hz]
      iintro ⟨⟨⟨HS, Hrest⟩, Hg⟩, Ho, ⟨%d0, H0⟩, ⟨%d1, H1⟩, ⟨%d2, H2⟩⟩
      iapply ((runMid c (grid1.coords t) _ _ _ _ _ _ _ _ (fun h => h0 ((isFirst_iff t).mp h)) (fun h => h1 ((isLast_iff t).mp h)) (blk1 V c 0 t) (blk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (coverMid c _ _ _ _ _ _ _ _ _ _ _ _ _ _)
          iexact Hrest
        iexact Hg
      isplitl [Ho]; · iexact Ho
      isplitl [H0]; · iexact H0
      isplitl [H1]; · iexact H1
      iexists _; iexact H2

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the untouched rest back: the accumulator's value is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS, Hrest⟩, Hg⟩
  isplitl [HS Hrest]
  · isplitl [HS]
    · iexists _; iexact HS
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 24 := N_1; omega)

end

end Cert.KernelIdeal.Hand

end
-- ==== Proof.KI.Run.lean ====
/-
  The whole program as a run: the first region, the second region, the final reshape.

  The contents of the unscoped buffers are followed from the launch memory through the three items: `W0` at launch;
  `W1` after the first region (its output array at what the write-backs leave, everything else unchanged); `W2` after
  the second region likewise; `W3` after the reshape. No item writes an argument array, so each argument is read back
  through the fold to its launch contents; and the result array is the reshape of what the second region's write-backs
  leave. The regions are entered and left with every unscoped buffer held at these contents, beside the generator
  register at some state and the core owing nothing.
-/
import proofs.«114731_j63780264346270_1_alg».proof.Proof.Gen.KernelIdeal.Launch
import proofs.«114731_j63780264346270_1_alg».proof.Proof.Gen.KernelIdeal.Skeleton
import proofs.«114731_j63780264346270_1_alg».proof.Proof.Gen.KernelIdeal.Points
import proofs.«114731_j63780264346270_1_alg».proof.Proof.Gen.KernelIdeal.Regions
import proofs.«114731_j63780264346270_1_alg».proof.Proof.KI.Norm
import proofs.«114731_j63780264346270_1_alg».proof.Proof.KI.Acc
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- The same read at the TensorCore's references: what the first region's proof data take. -/
abbrev VA : (c : Dev nD) → (b : Ref sig .tc) → Buf (Elt F) ((c : Thread nD τ).loc b) := fun c b => W0 m c b

/-- After the first region: its arrays at what the pipeline leaves, every other buffer as entered. -/
def W1 (c : Dev nD) : Valuation τ sig (Elt F) :=
  Pipeline.withArrays spec0 c (W0 m c) fun w => (dat0 (VA m) c).arrAt w cfg0.N
theorem W1_arr (c : Dev nD) (w : Fin cfg0.W) :
    W1 m c (Proc.devRef .tc (Pipeline.arrRef spec0 w)) = (dat0 (VA m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VB : (c : Dev nD) → (b : Ref sig .tc) → Buf (Elt F) ((c : Thread nD τ).loc b) := fun c b => W1 m c b
theorem hF0 (c : Dev nD) (w : Fin cfg0.W) : (dat0 (VA m) c).arrAt w cfg0.N = VB m c (Pipeline.arrRef spec0 w) :=
  (W1_arr m c w).symm
theorem hrest0 (c : Dev nD) : ∀ b, b ∉ Finset.univ.image (Pipeline.arrRef spec0) → VB m c b = VA m c b :=
  fun b hb => W1_of_ne m c b fun w e => hb (Finset.mem_image.mpr ⟨w, Finset.mem_univ _, e⟩)

/-- After the second region. -/
def W2 (c : Dev nD) : Valuation τ sig (Elt F) :=
  Pipeline.withArrays spec1 c (W1 m c) fun w => (dat1 (VB m) c).arrAt w cfg1.N
theorem W2_arr (c : Dev nD) (w : Fin cfg1.W) :
    W2 m c (Proc.devRef .tc (Pipeline.arrRef spec1 w)) = (dat1 (VB m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev VC : (c : Dev nD) → (b : Ref sig .tc) → Buf (Elt F) ((c : Thread nD τ).loc b) := fun c b => W2 m c b
theorem hF1 (c : Dev nD) (w : Fin cfg1.W) : (dat1 (VB m) c).arrAt w cfg1.N = VC m c (Pipeline.arrRef spec1 w) :=
  (W2_arr m c w).symm
theorem hrest1 (c : Dev nD) : ∀ b, b ∉ Finset.univ.image (Pipeline.arrRef spec1) → VC m c b = VB m c b :=
  fun b hb => W2_of_ne m c b fun w e => hb (Finset.mem_image.mpr ⟨w, Finset.mem_univ _, e⟩)

/-- After the reshape. -/
abbrev W3 : Dev nD → Valuation τ sig (Elt F) := fun c => StableHlo.after hostOps2 (W2 m c)

/-- The reshape writes only the result array. -/
theorem W3_of (c : Dev nD) (r : Ref sig .tc) (h : r ∉ hostOps2_W) : W3 m c r = W2 m c r :=
  StableHlo.after_of_writes_sub hostOps2 _ hostOps2_writes h

/-! ## The arguments end as launched, and the result is the reshaped product -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of m c main_arg0 (by decide)
    _ = W1 m c (Proc.devRef .tc main_arg0) := (W2_arr m c 0).trans (((dat1 (VB m) c).arrAt_in 0 rfl _).trans (A_eq1 (VB m) c 0))
    _ = W0 m c (Proc.devRef .tc main_arg0) := W1_of_ne m c main_arg0 (by decide)
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of m c main_arg1 (by decide)
    _ = W1 m c (Proc.devRef .tc main_arg1) := W2_of_ne m c main_arg1 (by decide)
    _ = W0 m c (Proc.devRef .tc main_arg1) := (W1_arr m c 0).trans (((dat0 (VA m) c).arrAt_in 0 rfl _).trans (A_eq0 (VA m) c 0))
    _ = m ((c : Thread nD τ).loc main_arg1) := rfl

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of m c main_arg2 (by decide)
    _ = W1 m c (Proc.devRef .tc main_arg2) := W2_of_ne m c main_arg2 (by decide)
    _ = W0 m c (Proc.devRef .tc main_arg2) := (W1_arr m c 1).trans (((dat0 (VA m) c).arrAt_in 1 rfl _).trans (A_eq0 (VA m) c 1))
    _ = m ((c : Thread nD τ).loc main_arg2) := rfl

/-- The result array is the reshape of what the second region's write-backs leave in the product array. -/
theorem W3_main_v2 (c : Dev nD) :
    W3 m c (Proc.devRef .tc main_v2) = shapeCast S1024x512x6 ((dat1 (VB m) c).arrAt 2 cfg1.N) shapeCasts_S1024x3072_S1024x512x6 := by
  have e : W3 m c (Proc.devRef .tc main_v2) = shapeCast S1024x512x6 (W2 m c (Proc.devRef .tc main_v1)) shapeCasts_S1024x3072_S1024x512x6 := by
    show StableHlo.after hostOps2 (W2 m c) (Proc.devRef .tc main_v2) = _
    after_results <;> rfl
  rw [e]; exact congrArg (fun x => shapeCast S1024x512x6 x shapeCasts_S1024x3072_S1024x512x6) (W2_arr m c 2)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first region: entered with every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every unscoped buffer at `W1`, left at `W2`. The accumulator goes into the
    invariant with the other scoped buffers and comes back with them, its value forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (VB m) c
    unfold Pipeline.ΦA at h
    show _ ⊢ (dat1 (VB m) c).Φ 0
    iintro ⟨Hp, -, Hr⟩
    iapply h
    isplitl [Hr]; · iexact Hr
    iexact Hp
  hout c := by
    have h := hout1 (VB m) c
    unfold Pipeline.ΦA at h
    rw [Pipeline.ownSems0_none]
    show (dat1 (VB m) c).Φ (Fin.last cfg1.N) ⊢ _
    iintro Hf
    ihave H := h $$ Hf
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .region (reg1 m),
    .host (hseg hostOps2 hostOps2_sub hostOps2_fresh (W2 m)) ]

theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every final memory holds every unscoped buffer at `W3`. -/
theorem run_full (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME: the program runs to the end and its argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c)⟩) (run_full m ρ)

/-- THE RUN WITH THE RESULT NAMED: as the frame, and the result array ends at the reshape of what the second region's
    write-backs leave in the product array. -/
theorem run_value (ρ : Dev nD → PrngReg) : θ_run defs (onTc (τ := τ) (main (F := F))) ⟨m, fun _ => 0, ρ⟩ (fun r => ∀ c : Dev nD,
      r.2.mem ((c.tc : Thread nD τ).loc main_v2) = shapeCast S1024x512x6 ((dat1 (VB m) c).arrAt 2 cfg1.N) shapeCasts_S1024x3072_S1024x512x6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v2 (by decide))).trans (W3_main_v2 m c),
     (h c _ (mem_uc main_arg0 (by decide))).trans (W3_main_arg0 m c),
     (h c _ (mem_uc main_arg1 (by decide))).trans (W3_main_arg1 m c),
     (h c _ (mem_uc main_arg2 (by decide))).trans (W3_main_arg2 m c)⟩) (run_full m ρ)

end Cert.KernelIdeal.Hand

end
-- ==== Proof.Spec.lean ====
/-
  The function both programs compute, stated once over the argument arrays.

  With `w` and `mk` of shape 3072 × 12288 and `x` of shape 1024 × 12288, as extended reals:
    * the unnormalised weight is  e r k = exp (w r k) · mk r k ;
    * a row's total is            s r   = ∑ k, e r k ;
    * the normalised weight is    n r k = e r k / s r   (the extended reals' quotient, whatever `s r` is);
    * the output is               out b r = ∑ k, x b k · n r k .
  The last reshape to 1024 × 512 × 6 is the same on both sides and is not part of this function.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The shapes of the three arguments and of the product before the last reshape. -/
abbrev SX : Shape := ⟨2, ![1024, 12288]⟩
abbrev SW : Shape := ⟨2, ![3072, 12288]⟩
abbrev SO : Shape := ⟨2, ![1024, 3072]⟩

/-- The unnormalised weight at an entry: the exponential of the parameter times the mask. -/
def e (w mk : SW.Idx → EReal) (j : SW.Idx) : EReal := Ideal.exp (w j) * mk j

/-- A row's total of unnormalised weights. -/
def rowsum (w mk : SW.Idx → EReal) (r : Fin 3072) : EReal := ∑ k : Fin 12288, e w mk (ix2 r k)

/-- The normalised weight: an entry over its row's total. -/
def wn (w mk : SW.Idx → EReal) (r : Fin 3072) (k : Fin 12288) : EReal :=
  Ideal.div (e w mk (ix2 r k)) (rowsum w mk r)

/-- The output before the reshape: each batch row against each normalised weight row. -/
def out (x : SX.Idx → EReal) (w mk : SW.Idx → EReal) (i : SO.Idx) : EReal :=
  ∑ k : Fin 12288, x (ix2 (i 0) k) * wn w mk (i 1) k

end Cert.Spec

end
-- ==== Proof.ValNorm.lean ====
/-
  The first region's value, over the extended reals: the array of normalised weights.

  At a grid point `t` the body's block is rows 96·t … 96·t+95 of the two weight arrays; the stored block at (p, k) is
  exp(w)·mask at (96·t+p, k) over the total of that row. Every row of the array lies in exactly the block of point
  `row / 96`, every point writes its block back, so after the region the whole array is the normalised weight
  `Spec.wn` of the two argument arrays, index by index.
-/
import proofs.«114731_j63780264346270_1_alg».proof.Proof.KI.Norm
import proofs.«114731_j63780264346270_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl

/-- The body's stored value at (p, k): the entry exp(x0)·x1 over its row's total. -/
theorem pay_norm (x0 x1 : Vec Ideal S96x12288 .f32) (p : Fin 96) (k : Fin 12288) :
    k0_pay1 (F := Ideal) x0 x1 (ix2 p k)
      = Ideal.div (Ideal.exp (x0 (ix2 p k)) * x1 (ix2 p k)) (∑ k' : Fin 12288, Ideal.exp (x0 (ix2 p k')) * x1 (ix2 p k')) := by
  unfold k0_pay1
  show FloatOps.truncf (F := Ideal) .bf16 bitsLt_bf16_f32 (FloatOps.divf (FloatOps.mulf (FloatOps.exp (x0 (ix2 p k))) (x1 (ix2 p k)))
    (broadcastTo S96x12288 (shapeCast S96x1 (multiReduction (F := Ideal) .add [1] S96 (mulf (exp x0) x1) 0x00000000#32 reduces_S96x12288_S96 (.inl rfl) rfl) shapeCasts_S96_S96x1) broadcasts_S96x1_S96x12288 (ix2 p k))) = _
  rw [broadcastTo_apply _ broadcasts_S96x1_S96x12288 (ix2 p k) (ix2 p (0 : Fin 1)) (fun a => by
    match a with
    | ⟨0, _⟩ => show p.val = if (96 : Nat) = 1 then 0 else p.val; rw [if_neg (by decide)]
    | ⟨1, _⟩ => show 0 = if (1 : Nat) = 1 then 0 else k.val; rw [if_pos rfl])]
  rw [shapeCast_apply _ shapeCasts_S96_S96x1 (ix2 p (0 : Fin 1)) (ix1 p) (by
    rw [Shape.rowMajor_val_one, Shape.rowMajor_val_two]; show p.val = p.val * 1 + 0; omega)]
  have hred : multiReduction (F := Ideal) .add [1] S96 (mulf (exp x0) x1) 0x00000000#32 reduces_S96x12288_S96 (.inl rfl) rfl (ix1 p)
      = ∑ k' : Fin 12288, Ideal.exp (x0 (ix2 p k')) * x1 (ix2 p k') :=
    (Ideal.multiReduction_add_single (mulf (exp x0) x1) 0x00000000#32 reduces_S96x12288_S96 (.inl rfl) rfl (ix1 p)).trans
      (Finset.sum_congr rfl fun k' _ => by
        have e : reduces_S96x12288_S96.lift (ix1 p) k' = ix2 p k' :=
          funext fun a => Fin.ext (by match a with | ⟨0, _⟩ => rfl | ⟨1, _⟩ => rfl)
        rw [e]; rfl)
  show Ideal.div (Ideal.exp (x0 (ix2 p k)) * x1 (ix2 p k))
    (multiReduction (F := Ideal) .add [1] S96 (mulf (exp x0) x1) 0x00000000#32 reduces_S96x12288_S96 (.inl rfl) rfl (ix1 p)) = _
  rw [hred]

/-- So the block the body leaves, at (p, k). -/
theorem normBlock_at (x0 x1 : Vec Ideal S96x12288 .f32) (p : Fin 96) (k : Fin 12288) :
    normBlock (F := Ideal) x0 x1 (ix2 p k)
      = Ideal.div (Ideal.exp (x0 (ix2 p k)) * x1 (ix2 p k)) (∑ k' : Fin 12288, Ideal.exp (x0 (ix2 p k')) * x1 (ix2 p k')) := by
  unfold normBlock
  rw [View.canon_unit_zero hz2]
  simp only [View.ld_unit_zero (S := S96x12288) hz2]
  exact pay_norm x0 x1 p k

section
variable (V : (c : Dev nD) → (b : Ref sig .tc) → Buf (Elt Ideal) ((c : Thread nD τ).loc b))

/-- Where the three windows' blocks sit: block `t` of each is rows 96·t …, all columns. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row `p` of block `t` is row 96·t + p of the array. -/
def row0 (t : Fin cfg0.N) (p : Fin 96) : Fin 3072 :=
  ⟨96 * t.val + p.val, by have h : t.val < 32 := lt_of_lt_of_eq t.isLt (show cfg0.N = 32 from N_0); have := p.isLt; omega⟩

/-- An input block at (p, k) is the array at (96·t + p, k). -/
theorem blk0_0_at (c : Dev nD) (t : Fin cfg0.N) (p : Fin 96) (k : Fin 12288) :
    (blk0 V c 0 t : Vec Ideal S96x12288 .f32) (ix2 p k) = V c main_arg1 (ix2 (row0 t p) k) := by
  obtain ⟨e0, e1, -, -, -, -⟩ := idx0 t
  unfold blk0
  rw [View.read_apply]
  show V c main_arg1 _ = V c main_arg1 _
  congr 1
  funext a
  apply Fin.ext
  match a with
  | ⟨0, _⟩ => show win0_0.index t 0 * 96 + 1 * p.val = 96 * t.val + p.val; rw [e0]; omega
  | ⟨1, _⟩ => show win0_0.index t 1 * 12288 + 1 * k.val = k.val; rw [e1]; omega

theorem blk0_1_at (c : Dev nD) (t : Fin cfg0.N) (p : Fin 96) (k : Fin 12288) :
    (blk0 V c 1 t : Vec Ideal S96x12288 .f32) (ix2 p k) = V c main_arg2 (ix2 (row0 t p) k) := by
  obtain ⟨-, -, e0, e1, -, -⟩ := idx0 t
  unfold blk0
  rw [View.read_apply]
  show V c main_arg2 _ = V c main_arg2 _
  congr 1
  funext a
  apply Fin.ext
  match a with
  | ⟨0, _⟩ => show win0_1.index t 0 * 96 + 1 * p.val = 96 * t.val + p.val; rw [e0]; omega
  | ⟨1, _⟩ => show win0_1.index t 1 * 12288 + 1 * k.val = k.val; rw [e1]; omega

/-- The whole array of normalised weights, from the two weight arrays. -/
def G0 (w mk : S3072x12288.Idx → EReal) : S3072x12288.Idx → EReal := fun j => Cert.Spec.wn w mk (j 0) (j 1)

theorem G0_at (w mk : S3072x12288.Idx → EReal) (r : Fin 3072) (k : Fin 12288) :
    G0 w mk (ix2 r k) = Cert.Spec.wn w mk r k := rfl

/-- WHAT POINT `t` WRITES BACK is block `t` of `G0` of the two weight arrays as the region finds them. -/
theorem flushed0_eq (c : Dev nD) (t : Fin cfg0.N) :
    (dat0 V c).flushed 2 t = ((cfg0.win 2).blk t).view.read (Elt Ideal) (G0 (V c main_arg1) (V c main_arg2)) := by
  show (cfg0.win 2).cut (grid0.coords t) ((dat0 V c).after 2 t) = _
  rw [after0_2]
  obtain ⟨-, -, -, -, e0, e1⟩ := idx0 t
  funext j
  obtain ⟨p, k, rfl⟩ : ∃ (p : Fin 96) (k : Fin 12288), j = ix2 p k := ⟨j 0, j 1, eq_ix2 j⟩
  show normBlock (blk0 V c 0 t) (blk0 V c 1 t) (ix2 p k) = G0 (V c main_arg1) (V c main_arg2) (((cfg0.win 2).blk t).view.emb (ix2 p k))
  have hemb : ((cfg0.win 2).blk t).view.emb (ix2 p k) = ix2 (row0 t p) k := by
    funext a
    apply Fin.ext
    match a with
    | ⟨0, _⟩ => show win0_2.index t 0 * 96 + 1 * p.val = 96 * t.val + p.val; rw [e0]; omega
    | ⟨1, _⟩ => show win0_2.index t 1 * 12288 + 1 * k.val = k.val; rw [e1]; omega
  rw [hemb, G0_at, normBlock_at]
  simp only [blk0_0_at, blk0_1_at]
  rfl

/-- An index of the array is in point `t`'s block iff each coordinate is in the block's range on its axis. -/
theorem mem_blk0 (t : Fin cfg0.N) (i : S3072x12288.Idx) :
    i ∈ ((cfg0.win 2).blk t).view.set ↔ ∀ a : Fin 2, win0_2.index t a * S96x12288.size a ≤ (i a).val ∧ (i a).val < win0_2.index t a * S96x12288.size a + S96x12288.size a := by
  show i ∈ ((View.whole main_v0).slice (win0_2.rect t)).set ↔ _
  rw [View.set_slice_whole, Rect.mem_set_unit]
  exact Iff.rfl

/-- Every index lies in the block of the point `row / 96`, which is written back. -/
theorem cover0 (i : S3072x12288.Idx) : ∃ t : Fin cfg0.N, (cfg0.win 2).flush t = true ∧ i ∈ ((cfg0.win 2).blk t).view.set := by
  have hi0 : (i 0).val < 3072 := (i 0).isLt
  have hi1 : (i 1).val < 12288 := (i 1).isLt
  refine ⟨⟨(i 0).val / 96, by rw [show cfg0.N = 32 from N_0]; omega⟩, flush0_2 _, ?_⟩
  rw [mem_blk0]
  obtain ⟨-, -, -, -, e0, e1⟩ := idx0 ⟨(i 0).val / 96, by rw [show cfg0.N = 32 from N_0]; omega⟩
  intro a
  match a with
  | ⟨0, _⟩ =>
    show win0_2.index _ (0 : Fin 2) * 96 ≤ (i 0).val ∧ (i 0).val < win0_2.index _ (0 : Fin 2) * 96 + 96
    rw [e0]; dsimp only; omega
  | ⟨1, _⟩ =>
    show win0_2.index _ (1 : Fin 2) * 12288 ≤ (i 1).val ∧ (i 1).val < win0_2.index _ (1 : Fin 2) * 12288 + 12288
    rw [e1]; omega

/-- THE ARRAY after the first region: the normalised weights of the two weight arrays as the region finds them. -/
theorem final0 (c : Dev nD) : (dat0 V c).arrAt 2 cfg0.N = G0 (V c main_arg1) (V c main_arg2) :=
  (dat0 V c).arrAt_eq_of_cover 2 _ (fun t _ => flushed0_eq V c t) cover0

end

end Cert.KernelIdeal.Val

end
-- ==== Proof.ValPay.lean ====
/-
  The second region's arithmetic, read at an index over the extended reals, and what each kind of point leaves as a
  closed form.

  One step of the accumulation (`k1_pay2`) takes the staged block `a` of the batch rows (512 × 1024), the accumulator `s`
  (512 × 3072) and the staged block `b` of normalised weights (3072 × 1024) to  s p q + ∑ k, a p k · b q k  — the matrix
  unit's product of `a` with the transpose of `b` into a zero accumulator, then the sum with `s`; the changes of float
  format in between are the identity. The reset value (`k1_pay1`) is the zero block. After a first column block the
  accumulator holds one step from zero; after any other point one step from what it held; and at a last column block the
  output's buffer receives a copy of it.
-/
import proofs.«114731_j63780264346270_1_alg».proof.Proof.KI.AccRuns
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx Idealize.SL.Sem

theorem hzz : (![0, 0] : Fin 2 → Nat) = fun _ => 0 := funext fun a => by fin_cases a <;> rfl

/-- The product's dimension record: both operands contracted on their second axis. -/
abbrev DD : DotDims S512x1024 S3072x1024 S512x3072 := dot_S512x1024_S3072x1024_S512x3072_1_1_0_0_n_n

theorem lhs_0 (i : S512x3072.Idx) (q : DD.contr.Idx) : (DD.lhsIdx i q 0).val = (i 0).val := by
  unfold DotDims.lhsIdx
  rw [dif_neg (show ¬(0 : Fin S512x1024.rank) ∈ DD.lhsBatch by decide), dif_pos (show (0 : Fin S512x1024.rank) ∈ DD.lhsNonContracting by decide)]
  rfl
theorem lhs_1 (i : S512x3072.Idx) (q : DD.contr.Idx) : (DD.lhsIdx i q 1).val = (q ⟨0, by decide⟩).val :=
  DD.lhsIdx_val_of_single rfl i q
theorem rhs_0 (i : S512x3072.Idx) (q : DD.contr.Idx) : (DD.rhsIdx i q 0).val = (i 1).val := by
  unfold DotDims.rhsIdx
  rw [dif_neg (show ¬(0 : Fin S3072x1024.rank) ∈ DD.rhsBatch by decide), dif_pos (show (0 : Fin S3072x1024.rank) ∈ DD.rhsNonContracting by decide)]
  rfl
theorem rhs_1 (i : S512x3072.Idx) (q : DD.contr.Idx) : (DD.rhsIdx i q 1).val = (q ⟨0, by decide⟩).val :=
  DD.rhsIdx_val_of_single rfl i q

/-- The matrix unit's product into a zero accumulator, at (p, q): the sum over the 1024 contracted columns. -/
theorem matmul_at (l : FVec Ideal S512x1024 .bf16) (r : FVec Ideal S3072x1024 .bf16) (p : Fin 512) (q : Fin 3072) :
    FloatOps.matmul (F := Ideal) DD none l r (constant S512x3072 .f32 0x00000000#32) (ix2 p q)
      = ∑ k : Fin 1024, l (ix2 p k) * r (ix2 q k) := by
  rw [Ideal.matmul_constant_zero_apply, ← Equiv.sum_comp (ValueIdx.contrEquiv1 DD 1024 rfl rfl).symm]
  refine Finset.sum_congr rfl fun k _ => ?_
  have hk := ValueIdx.contrEquiv1_symm_val DD 1024 rfl rfl k
  have el : DD.lhsIdx (ix2 p q) ((ValueIdx.contrEquiv1 DD 1024 rfl rfl).symm k) = ix2 p k := funext fun a => Fin.ext (by
    match a with
    | ⟨0, _⟩ => exact lhs_0 _ _
    | ⟨1, _⟩ => exact (lhs_1 _ _).trans hk)
  have er : DD.rhsIdx (ix2 p q) ((ValueIdx.contrEquiv1 DD 1024 rfl rfl).symm k) = ix2 q k := funext fun a => Fin.ext (by
    match a with
    | ⟨0, _⟩ => exact rhs_0 _ _
    | ⟨1, _⟩ => exact (rhs_1 _ _).trans hk)
  rw [el, er]

/-- One step of the accumulation, at (p, q). -/
theorem step_at (a : Vec Ideal S512x1024 .f32) (s : Vec Ideal S512x3072 .f32) (b : Vec Ideal S3072x1024 .bf16) (p : Fin 512) (q : Fin 3072) :
    k1_pay2 (F := Ideal) a s b (ix2 p q) = s (ix2 p q) + ∑ k : Fin 1024, a (ix2 p k) * b (ix2 q k) := by
  unfold k1_pay2
  rw [shapeCast_self, shapeCast_self]
  exact congrArg (s (ix2 p q) + ·) (matmul_at (truncf .bf16 a bitsLt_bf16_f32) b p q)

/-- The reset value is zero everywhere. -/
theorem zero_at (i : S512x3072.Idx) : k1_pay1 (F := Ideal) i = 0 := by
  unfold k1_pay1
  rw [shapeCast_self]
  show Ideal.ofBits .f32 0x00000000#32 = 0
  exact Ideal.ofBits_zero_f32

variable {F : FTy → Type} [FloatOps F]

/-- After a first column block the accumulator holds one step from the reset value. -/
theorem accFirst_eq (c : Dev nD) (i : grid1.Coords) (a2 : Memref sig .tc .vmem S512x1024 .f32) (h2 : a2.IsWhole)
    (a3 : Memref sig .tc .vmem S3072x1024 .bf16) (h3 : a3.IsWhole) (a4 : Memref sig .tc .vmem S512x3072 .f32) (h4 : a4.IsWhole)
    (a5 : Memref sig .tc .vmem S512x3072 .f32) (h5 : a5.IsWhole) (hc0 : isFirst i) (hc1 : ¬isLast i)
    (x0 : Vec F S512x1024 .f32) (x1 : Vec F S3072x1024 .bf16) :
    accFirst c i a2 h2 a3 h3 a4 h4 a5 h5 hc0 hc1 x0 x1 = k1_pay2 x0 (k1_pay1 (F := F)) x1 := by
  unfold accFirst
  rw [View.read_writes_eq_canon _ _ _ (coverFirst c i a2 h2 a3 h3 a4 h4 a5 h5 hc0 hc1 x0 x1)]
  unfold runFirst
  dsimp only
  sl_unfold_words
  rw [View.canon_cons_unit_zero (S := S512x3072) hzz, View.readCov_unit_zero (S := S512x3072) _ hzz]
  simp only [View.readAt_eq_ld, h2.read_unread, h3.read_unread, View.ld_unit_zero (S := S512x1024) hzz, View.ld_unit_zero (S := S3072x1024) hzz]

/-- After a middle point the accumulator holds one step from what it held. -/
theorem accMid_eq (c : Dev nD) (i : grid1.Coords) (a2 : Memref sig .tc .vmem S512x1024 .f32) (h2 : a2.IsWhole)
    (a3 : Memref sig .tc .vmem S3072x1024 .bf16) (h3 : a3.IsWhole) (a4 : Memref sig .tc .vmem S512x3072 .f32) (h4 : a4.IsWhole)
    (a5 : Memref sig .tc .vmem S512x3072 .f32) (h5 : a5.IsWhole) (hc0 : ¬isFirst i) (hc1 : ¬isLast i)
    (x0 : Vec F S512x1024 .f32) (x1 : Vec F S3072x1024 .bf16) (xs : Vec F S512x3072 .f32) :
    accMid c i a2 h2 a3 h3 a4 h4 a5 h5 hc0 hc1 x0 x1 xs = k1_pay2 x0 xs x1 := by
  unfold accMid
  rw [View.read_writes_eq_canon _ _ _ (coverMid c i a2 h2 a3 h3 a4 h4 a5 h5 hc0 hc1 x0 x1 xs)]
  unfold runMid
  dsimp only
  sl_unfold_words
  rw [View.canon_unit_zero (S := S512x3072) hzz]
  simp only [View.readAt_eq_ld, h2.read_unread, h3.read_unread, h5.read_unread, View.ld_unit_zero (S := S512x1024) hzz,
    View.ld_unit_zero (S := S3072x1024) hzz, View.ld_unit_zero (S := S512x3072) hzz]

/-- After a last column block likewise, -/
theorem accLast_eq (c : Dev nD) (i : grid1.Coords) (a2 : Memref sig .tc .vmem S512x1024 .f32) (h2 : a2.IsWhole)
    (a3 : Memref sig .tc .vmem S3072x1024 .bf16) (h3 : a3.IsWhole) (a4 : Memref sig .tc .vmem S512x3072 .f32) (h4 : a4.IsWhole)
    (a5 : Memref sig .tc .vmem S512x3072 .f32) (h5 : a5.IsWhole) (hc0 : ¬isFirst i) (hc1 : isLast i)
    (x0 : Vec F S512x1024 .f32) (x1 : Vec F S3072x1024 .bf16) (xs : Vec F S512x3072 .f32) :
    accLast c i a2 h2 a3 h3 a4 h4 a5 h5 hc0 hc1 x0 x1 xs = k1_pay2 x0 xs x1 := by
  unfold accLast
  rw [View.read_writes_eq_canon _ _ _ (coverLastS c i a2 h2 a3 h3 a4 h4 a5 h5 hc0 hc1 x0 x1 xs)]
  unfold runLast
  dsimp only
  sl_unfold_words
  rw [View.canon_unit_zero (S := S512x3072) hzz]
  simp only [View.readAt_eq_ld, h2.read_unread, h3.read_unread, h5.read_unread, View.ld_unit_zero (S := S512x1024) hzz,
    View.ld_unit_zero (S := S3072x1024) hzz, View.ld_unit_zero (S := S512x3072) hzz]

/-- and the output's buffer receives the same value. -/
theorem outLast_eq (c : Dev nD) (i : grid1.Coords) (a2 : Memref sig .tc .vmem S512x1024 .f32) (h2 : a2.IsWhole)
    (a3 : Memref sig .tc .vmem S3072x1024 .bf16) (h3 : a3.IsWhole) (a4 : Memref sig .tc .vmem S512x3072 .f32) (h4 : a4.IsWhole)
    (a5 : Memref sig .tc .vmem S512x3072 .f32) (h5 : a5.IsWhole) (hc0 : ¬isFirst i) (hc1 : isLast i)
    (x0 : Vec F S512x1024 .f32) (x1 : Vec F S3072x1024 .bf16) (xs : Vec F S512x3072 .f32) :
    outLast c i a2 h2 a3 h3 a4 h4 a5 h5 hc0 hc1 x0 x1 xs = k1_pay2 x0 xs x1 := by
  unfold outLast
  rw [View.read_writes_eq_canon _ _ _ (coverLastO c i a2 h2 a3 h3 a4 h4 a5 h5 hc0 hc1 x0 x1 xs)]
  unfold runLast
  dsimp only
  sl_unfold_words
  rw [View.canon_unit_zero (S := S512x3072) hzz, View.readCov_unit_zero (S := S512x3072) _ hzz]
  simp only [View.readAt_eq_ld, h2.read_unread, h3.read_unread, h5.read_unread, View.ld_unit_zero (S := S512x1024) hzz,
    View.ld_unit_zero (S := S3072x1024) hzz, View.ld_unit_zero (S := S512x3072) hzz]

end Cert.KernelIdeal.Val

end
-- ==== Proof.SumBlocks.lean ====
/-
  Regrouping a long sum into equal blocks, and an accumulator that adds one block per step.

  Only the commutative-monoid laws are used (associativity and commutativity of the addition), so the
  statements hold in the extended reals, where no cancellation or finiteness is available.
-/
import Mathlib.Algebra.BigOperators.Fin
import Mathlib.Logic.Equiv.Fin.Basic

namespace Cert.Spec

open scoped BigOperators

/-- A sum of 12288 terms is the sum over 12 consecutive blocks of the 1024 terms inside each block:
    every position below 12288 is written once as `1024 * j + q` with `j < 12` and `q < 1024`. -/
theorem sum_blocks {M : Type*} [AddCommMonoid M] (f : Fin 12288 → M) :
    ∑ j : Fin 12, ∑ q : Fin 1024,
        f ⟨1024 * j.val + q.val, by have := j.isLt; have := q.isLt; omega⟩ = ∑ k : Fin 12288, f k := by
  rw [← Equiv.sum_comp (finProdFinEquiv : Fin 12 × Fin 1024 ≃ Fin 12288) f, Fintype.sum_prod_type]
  refine Finset.sum_congr rfl fun j _ => Finset.sum_congr rfl fun q _ => ?_
  refine congrArg f (Fin.ext ?_)
  show 1024 * j.val + q.val = q.val + 1024 * j.val
  omega

/-- The running total of an accumulator that starts from zero, adds the first block, and then adds one
    further block at every later step. -/
def accN {M : Type*} [AddCommMonoid M] (g : ℕ → M) : ℕ → M
  | 0 => 0 + g 0
  | (n+1) => accN g n + g (n+1)

/-- After step `n` the accumulator holds the sum of the blocks `0, …, n`. -/
theorem accN_eq {M : Type*} [AddCommMonoid M] (g : ℕ → M) (n : ℕ) :
    accN g n = ∑ j ∈ Finset.range (n+1), g j := by
  induction n with
  | zero => simp [accN]
  | succ n ih => rw [accN, ih, Finset.sum_range_succ (fun j => g j) (n+1)]

/-- After the twelfth step (step 11) the accumulator holds the sum of all twelve blocks. -/
theorem accN_eleven {M : Type*} [AddCommMonoid M] (g : ℕ → M) :
    accN g 11 = ∑ j : Fin 12, g j.val := by
  rw [accN_eq, Finset.sum_range]

end Cert.Spec
-- ==== Proof.ValAcc.lean ====
/-
  The second region's value, over the extended reals: the product array.

  Point `t` has batch block `t / 12` and column block `t % 12`: its block of `x` is rows 512·(t/12)…, columns
  1024·(t%12)…; its block of the normalised weights is all 3072 rows, the same columns. The accumulator after point `t`
  is therefore, at (p, q), the running sum over column blocks 0 … t%12 of the partial products
  ∑ k < 1024, x[512·(t/12)+p, 1024·j+k] · n[q, 1024·j+k], starting from zero. After a last column block (t % 12 = 11) that
  is twelve blocks of 1024 terms, which regroup into the full sum over the 12288 columns; only those points write the
  output block back, and the two of them (t = 11, 23) cover the 1024 rows. So after the region the product array is
  ∑ k, x[b, k] · n[r, k] at every (b, r).
-/
import proofs.«114731_j63780264346270_1_alg».proof.Proof.KI.Acc
import proofs.«114731_j63780264346270_1_alg».proof.Proof.ValPay
import proofs.«114731_j63780264346270_1_alg».proof.Proof.SumBlocks
import proofs.«114731_j63780264346270_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The arrays read at natural-number coordinates -/

/-- `x` at row `r`, column `k` (zero outside the array: never read there). -/
def Xf (X : S1024x12288.Idx → EReal) (r k : ℕ) : EReal := if h : r < 1024 ∧ k < 12288 then X (ix2 ⟨r, h.1⟩ ⟨k, h.2⟩) else 0
/-- The normalised weights at row `q`, column `k`. -/
def Wf (W : S3072x12288.Idx → EReal) (q k : ℕ) : EReal := if h : q < 3072 ∧ k < 12288 then W (ix2 ⟨q, h.1⟩ ⟨k, h.2⟩) else 0
/-- The partial product of row `r` of `x` with row `q` of the weights over column block `j`. -/
def gblk (X : S1024x12288.Idx → EReal) (W : S3072x12288.Idx → EReal) (r q j : ℕ) : EReal :=
  ∑ k : Fin 1024, Xf X r (1024 * j + k.val) * Wf W q (1024 * j + k.val)

/-- The product array from the two arrays: the full contraction over the 12288 columns. -/
def G1 (X : S1024x12288.Idx → EReal) (W : S3072x12288.Idx → EReal) : S1024x3072.Idx → EReal :=
  fun i => ∑ kk : Fin 12288, X (ix2 (i 0) kk) * W (ix2 (i 1) kk)

theorem G1_at (X : S1024x12288.Idx → EReal) (W : S3072x12288.Idx → EReal) (r : Fin 1024) (q : Fin 3072) :
    G1 X W (ix2 r q) = ∑ kk : Fin 12288, X (ix2 r kk) * W (ix2 q kk) := rfl

/-- Twelve column blocks' partial products, accumulated from zero, are the full contraction. -/
theorem twelve_blocks (X : S1024x12288.Idx → EReal) (W : S3072x12288.Idx → EReal) (r : Fin 1024) (q : Fin 3072) :
    Cert.Spec.accN (gblk X W r.val q.val) 11 = ∑ kk : Fin 12288, X (ix2 r kk) * W (ix2 q kk) := by
  rw [Cert.Spec.accN_eleven]
  have e := Cert.Spec.sum_blocks (fun kk : Fin 12288 => Xf X r.val kk.val * Wf W q.val kk.val)
  refine Eq.trans ?_ (e.trans (Finset.sum_congr rfl fun kk _ => ?_))
  · rfl
  · unfold Xf Wf
    rw [dif_pos ⟨r.isLt, kk.isLt⟩, dif_pos ⟨q.isLt, kk.isLt⟩]

section
variable (V : (c : Dev nD) → (b : Ref sig .tc) → Buf (Elt Ideal) ((c : Thread nD τ).loc b))

/-! ## Where the blocks sit -/

theorem idx1 : ∀ t : Fin cfg1.N, win1_0.index t (0 : Fin 2) = t.val / 12 ∧ win1_0.index t (1 : Fin 2) = t.val % 12
    ∧ win1_1.index t (0 : Fin 2) = 0 ∧ win1_1.index t (1 : Fin 2) = t.val % 12
    ∧ win1_2.index t (0 : Fin 2) = t.val / 12 ∧ win1_2.index t (1 : Fin 2) = 0 :=
  (by decide +kernel : ∀ t : Fin grid1.N, _)

/-- The block of `x` at point `t`, at (p, k): row 512·(t/12)+p, column 1024·(t%12)+k of the array. -/
theorem blk1_0_at (c : Dev nD) (t : Fin cfg1.N) (p : Fin 512) (k : Fin 1024) :
    (blk1 V c 0 t : Vec Ideal S512x1024 .f32) (ix2 p k) = Xf (V c main_arg0) (512 * (t.val / 12) + p.val) (1024 * (t.val % 12) + k.val) := by
  obtain ⟨e0, e1, -, -, -, -⟩ := idx1 t
  have hN : t.val < 24 := lt_of_lt_of_eq t.isLt (show cfg1.N = 24 from N_1)
  have hp := p.isLt
  have hk := k.isLt
  unfold Xf
  rw [dif_pos ⟨by omega, by omega⟩]
  unfold blk1
  rw [View.read_apply]
  show V c main_arg0 _ = V c main_arg0 _
  congr 1
  funext a
  apply Fin.ext
  match a with
  | ⟨0, _⟩ => show win1_0.index t 0 * 512 + 1 * p.val = 512 * (t.val / 12) + p.val; rw [e0]; omega
  | ⟨1, _⟩ => show win1_0.index t 1 * 1024 + 1 * k.val = 1024 * (t.val % 12) + k.val; rw [e1]; omega

/-- The block of the normalised weights at point `t`, at (q, k): row q, column 1024·(t%12)+k of the array. -/
theorem blk1_1_at (c : Dev nD) (t : Fin cfg1.N) (q : Fin 3072) (k : Fin 1024) :
    (blk1 V c 1 t : Vec Ideal S3072x1024 .bf16) (ix2 q k) = Wf (V c main_v0) q.val (1024 * (t.val % 12) + k.val) := by
  obtain ⟨-, -, e0, e1, -, -⟩ := idx1 t
  have hN : t.val < 24 := lt_of_lt_of_eq t.isLt (show cfg1.N = 24 from N_1)
  have hq := q.isLt
  have hk := k.isLt
  unfold Wf
  rw [dif_pos ⟨by omega, by omega⟩]
  unfold blk1
  rw [View.read_apply]
  show V c main_v0 _ = V c main_v0 _
  congr 1
  funext a
  apply Fin.ext
  match a with
  | ⟨0, _⟩ => show win1_1.index t 0 * 3072 + 1 * q.val = q.val; rw [e0]; omega
  | ⟨1, _⟩ => show win1_1.index t 1 * 1024 + 1 * k.val = 1024 * (t.val % 12) + k.val; rw [e1]; omega

/-- One step at point `t`, at (p, q): what the accumulator held plus the point's partial product. -/
theorem step_blk (c : Dev nD) (t : Fin cfg1.N) (s : Vec Ideal S512x3072 .f32) (p : Fin 512) (q : Fin 3072) :
    k1_pay2 (F := Ideal) (blk1 V c 0 t) s (blk1 V c 1 t) (ix2 p q)
      = s (ix2 p q) + gblk (V c main_arg0) (V c main_v0) (512 * (t.val / 12) + p.val) q.val (t.val % 12) := by
  refine (step_at _ s _ p q).trans (congrArg (s (ix2 p q) + ·) ?_)
  unfold gblk
  exact Finset.sum_congr rfl fun k _ => by rw [blk1_0_at, blk1_1_at]

/-! ## The accumulation in closed form -/

/-- The accumulator after point `n`, restated over the step and the blocks alone. -/
def chain (c : Dev nD) : (n : ℕ) → n < cfg1.N → Vec Ideal S512x3072 .f32
  | 0, h => k1_pay2 (blk1 V c 0 ⟨0, h⟩) (k1_pay1 (F := Ideal)) (blk1 V c 1 ⟨0, h⟩)
  | n + 1, h =>
    if (n + 1) % 12 = 0 then k1_pay2 (blk1 V c 0 ⟨n + 1, h⟩) (k1_pay1 (F := Ideal)) (blk1 V c 1 ⟨n + 1, h⟩)
    else k1_pay2 (blk1 V c 0 ⟨n + 1, h⟩) (chain c n (Nat.lt_of_succ_lt h)) (blk1 V c 1 ⟨n + 1, h⟩)

/-- Each kind of point, at a grid point `t`, as one step over the point's blocks. -/
theorem firstAt_eq (c : Dev nD) (t : Fin cfg1.N) (h0 : t.val % 12 = 0) (h1 : ¬t.val % 12 = 11) :
    firstAt V c t h0 h1 = k1_pay2 (blk1 V c 0 t) (k1_pay1 (F := Ideal)) (blk1 V c 1 t) := by
  unfold firstAt
  exact accFirst_eq c (grid1.coords t) (ms1_0 t) (hs1_0 t) (ms1_1 t) (hs1_1 t) (ms1_2 t) (hs1_2 t) accM (Memref.isWhole_whole _)
    ((isFirst_iff t).mpr h0) (fun h => h1 ((isLast_iff t).mp h)) (blk1 V c 0 t) (blk1 V c 1 t)

theorem midAt_eq (c : Dev nD) (t : Fin cfg1.N) (h0 : ¬t.val % 12 = 0) (h1 : ¬t.val % 12 = 11) (xs : Vec Ideal S512x3072 .f32) :
    midAt V c t h0 h1 xs = k1_pay2 (blk1 V c 0 t) xs (blk1 V c 1 t) := by
  unfold midAt
  exact accMid_eq c (grid1.coords t) (ms1_0 t) (hs1_0 t) (ms1_1 t) (hs1_1 t) (ms1_2 t) (hs1_2 t) accM (Memref.isWhole_whole _)
    (fun h => h0 ((isFirst_iff t).mp h)) (fun h => h1 ((isLast_iff t).mp h)) (blk1 V c 0 t) (blk1 V c 1 t) xs

theorem lastSAt_eq (c : Dev nD) (t : Fin cfg1.N) (h0 : ¬t.val % 12 = 0) (h1 : t.val % 12 = 11) (xs : Vec Ideal S512x3072 .f32) :
    lastSAt V c t h0 h1 xs = k1_pay2 (blk1 V c 0 t) xs (blk1 V c 1 t) := by
  unfold lastSAt
  exact accLast_eq c (grid1.coords t) (ms1_0 t) (hs1_0 t) (ms1_1 t) (hs1_1 t) (ms1_2 t) (hs1_2 t) accM (Memref.isWhole_whole _)
    (fun h => h0 ((isFirst_iff t).mp h)) ((isLast_iff t).mpr h1) (blk1 V c 0 t) (blk1 V c 1 t) xs

theorem lastOAt_eq (c : Dev nD) (t : Fin cfg1.N) (h0 : ¬t.val % 12 = 0) (h1 : t.val % 12 = 11) (xs : Vec Ideal S512x3072 .f32) :
    lastOAt V c t h0 h1 xs = k1_pay2 (blk1 V c 0 t) xs (blk1 V c 1 t) := by
  unfold lastOAt
  exact outLast_eq c (grid1.coords t) (ms1_0 t) (hs1_0 t) (ms1_1 t) (hs1_1 t) (ms1_2 t) (hs1_2 t) accM (Memref.isWhole_whole _)
    (fun h => h0 ((isFirst_iff t).mp h)) ((isLast_iff t).mpr h1) (blk1 V c 0 t) (blk1 V c 1 t) xs

/-- The chain's recursion step away from a first column block, and at one. -/
theorem chain_succ (c : Dev nD) (n : ℕ) (h : n + 1 < cfg1.N) (h0 : ¬(n + 1) % 12 = 0) :
    chain V c (n + 1) h = k1_pay2 (blk1 V c 0 ⟨n + 1, h⟩) (chain V c n (Nat.lt_of_succ_lt h)) (blk1 V c 1 ⟨n + 1, h⟩) := by
  show (if (n + 1) % 12 = 0 then _ else _) = _
  rw [if_neg h0]
theorem chain_reset (c : Dev nD) (n : ℕ) (h : n + 1 < cfg1.N) (h0 : (n + 1) % 12 = 0) :
    chain V c (n + 1) h = k1_pay2 (blk1 V c 0 ⟨n + 1, h⟩) (k1_pay1 (F := Ideal)) (blk1 V c 1 ⟨n + 1, h⟩) := by
  show (if (n + 1) % 12 = 0 then _ else _) = _
  rw [if_pos h0]
theorem chain_zero (c : Dev nD) (h : 0 < cfg1.N) :
    chain V c 0 h = k1_pay2 (blk1 V c 0 ⟨0, h⟩) (k1_pay1 (F := Ideal)) (blk1 V c 1 ⟨0, h⟩) := rfl

/-- At a first column block the chain restarts from the reset value, whichever point it is. -/
theorem chain_first (c : Dev nD) (t : Fin cfg1.N) (h0 : t.val % 12 = 0) :
    chain V c t.val t.isLt = k1_pay2 (blk1 V c 0 t) (k1_pay1 (F := Ideal)) (blk1 V c 1 t) := by
  obtain ⟨n, hn⟩ := t
  cases n with
  | zero => rfl
  | succ n => exact chain_reset V c n hn h0

/-- The recursion and the chain agree at a first column block. -/
theorem outsAt_eq_first (c : Dev nD) (t : Fin cfg1.N) (h0 : t.val % 12 = 0) (h1 : ¬t.val % 12 = 11) :
    (outsAt V c t.val t.isLt).2 = chain V c t.val t.isLt ∧ (t.val % 12 = 11 → (outsAt V c t.val t.isLt).1 = chain V c t.val t.isLt) := by
  rw [outsAt_first V c t h0 h1, chain_first V c t h0]
  dsimp only
  exact ⟨firstAt_eq V c t h0 h1, fun h11 => absurd h11 h1⟩

/-- What the region's recursion over the points carries IS that chain; and at a last column block the output's
    buffer holds it too. By induction on the point. -/
theorem outsAt_eq (c : Dev nD) (n : ℕ) : ∀ (h : n < cfg1.N),
    (outsAt V c n h).2 = chain V c n h ∧ (n % 12 = 11 → (outsAt V c n h).1 = chain V c n h) := by
  induction n with
  | zero =>
    intro h
    exact outsAt_eq_first V c ⟨0, h⟩ (Nat.zero_mod _) (by show ¬(0 % 12 = 11); decide)
  | succ n ihn =>
    intro h
    have ih := (ihn (Nat.lt_of_succ_lt h)).1
    by_cases h0 : (n + 1) % 12 = 0
    · have h1 : ¬(n + 1) % 12 = 11 := by omega
      exact outsAt_eq_first V c ⟨n + 1, h⟩ h0 h1
    · by_cases h1 : (n + 1) % 12 = 11
      · have e : outsAt V c (n + 1) h = (lastOAt V c ⟨n + 1, h⟩ h0 h1 (outsAt V c n (Nat.lt_of_succ_lt h)).2,
            lastSAt V c ⟨n + 1, h⟩ h0 h1 (outsAt V c n (Nat.lt_of_succ_lt h)).2) := outsAt_last V c ⟨n + 1, h⟩ h0 h1
        rw [e, chain_succ V c n h h0]
        dsimp only
        rw [ih]
        exact ⟨lastSAt_eq V c ⟨n + 1, h⟩ h0 h1 _, fun _ => lastOAt_eq V c ⟨n + 1, h⟩ h0 h1 _⟩
      · have e : outsAt V c (n + 1) h = (midAt V c ⟨n + 1, h⟩ h0 h1 (outsAt V c n (Nat.lt_of_succ_lt h)).2,
            midAt V c ⟨n + 1, h⟩ h0 h1 (outsAt V c n (Nat.lt_of_succ_lt h)).2) := outsAt_mid V c ⟨n + 1, h⟩ h0 h1
        rw [e, chain_succ V c n h h0]
        dsimp only
        rw [ih]
        exact ⟨midAt_eq V c ⟨n + 1, h⟩ h0 h1 _, fun h11 => absurd h11 h1⟩

/-- The chain at (p, q): the running sum, over column blocks 0 … n % 12, of the partial products of row
    512·(n/12)+p of `x` with row q of the weights. -/
theorem chain_at (c : Dev nD) : ∀ (n : ℕ) (h : n < cfg1.N) (p : Fin 512) (q : Fin 3072),
    chain V c n h (ix2 p q) = Cert.Spec.accN (gblk (V c main_arg0) (V c main_v0) (512 * (n / 12) + p.val) q.val) (n % 12)
  | 0, h, p, q => by
    rw [chain_zero, step_blk, zero_at]
    rfl
  | n + 1, h, p, q => by
    by_cases h0 : (n + 1) % 12 = 0
    · rw [chain_reset V c n h h0, step_blk, zero_at]
      show 0 + gblk _ _ (512 * ((n + 1) / 12) + p.val) q.val ((n + 1) % 12) = _
      rw [h0]
      rfl
    · rw [chain_succ V c n h h0, step_blk, chain_at c n (Nat.lt_of_succ_lt h) p q]
      show _ + gblk _ _ (512 * ((n + 1) / 12) + p.val) q.val ((n + 1) % 12) = _
      have hd : (n + 1) / 12 = n / 12 := by omega
      have hm : (n + 1) % 12 = n % 12 + 1 := by omega
      rw [hd, hm]
      rfl

/-! ## From the blocks to the array -/

/-- WHAT A LAST-COLUMN-BLOCK POINT WRITES BACK is its block of the full contraction of the two arrays as the region
    finds them. -/
theorem flushed1_eq (c : Dev nD) (t : Fin cfg1.N) (hf : (cfg1.win 2).flush t = true) :
    (dat1 V c).flushed 2 t = ((cfg1.win 2).blk t).view.read (Elt Ideal) (G1 (V c main_arg0) (V c main_v0)) := by
  have h11 : t.val % 12 = 11 := (flush1_2 t).mp hf
  have hN : t.val < 24 := lt_of_lt_of_eq t.isLt (show cfg1.N = 24 from N_1)
  obtain ⟨-, -, -, -, e0, e1⟩ := idx1 t
  show (cfg1.win 2).cut (grid1.coords t) ((dat1 V c).after 2 t) = _
  rw [after1_2, (outsAt_eq V c t.val t.isLt).2 h11]
  funext j
  obtain ⟨p, q, rfl⟩ : ∃ (p : Fin 512) (q : Fin 3072), j = ix2 p q := ⟨j 0, j 1, eq_ix2 j⟩
  show chain V c t.val t.isLt (ix2 p q) = G1 (V c main_arg0) (V c main_v0) (((cfg1.win 2).blk t).view.emb (ix2 p q))
  have hp := p.isLt
  have hemb : ((cfg1.win 2).blk t).view.emb (ix2 p q) = ix2 (⟨512 * (t.val / 12) + p.val, by omega⟩ : Fin 1024) q := by
    funext a
    apply Fin.ext
    match a with
    | ⟨0, _⟩ => show win1_2.index t 0 * 512 + 1 * p.val = 512 * (t.val / 12) + p.val; rw [e0]; omega
    | ⟨1, _⟩ => show win1_2.index t 1 * 3072 + 1 * q.val = q.val; rw [e1]; omega
  rw [hemb, G1_at, chain_at, h11]
  exact twelve_blocks (V c main_arg0) (V c main_v0) ⟨512 * (t.val / 12) + p.val, by omega⟩ q

/-- An index of the array is in point `t`'s block iff each coordinate is in the block's range on its axis. -/
theorem mem_blk1 (t : Fin cfg1.N) (i : S1024x3072.Idx) :
    i ∈ ((cfg1.win 2).blk t).view.set ↔ ∀ a : Fin 2, win1_2.index t a * S512x3072.size a ≤ (i a).val ∧ (i a).val < win1_2.index t a * S512x3072.size a + S512x3072.size a := by
  show i ∈ ((View.whole main_v1).slice (win1_2.rect t)).set ↔ _
  rw [View.set_slice_whole, Rect.mem_set_unit]
  exact Iff.rfl

/-- Every index lies in the block of the last-column-block point of its batch block, which is written back. -/
theorem cover1 (i : S1024x3072.Idx) : ∃ t : Fin cfg1.N, (cfg1.win 2).flush t = true ∧ i ∈ ((cfg1.win 2).blk t).view.set := by
  have hi0 : (i 0).val < 1024 := (i 0).isLt
  have hi1 : (i 1).val < 3072 := (i 1).isLt
  have hlt : 12 * ((i 0).val / 512) + 11 < cfg1.N := by rw [show cfg1.N = 24 from N_1]; omega
  refine ⟨⟨12 * ((i 0).val / 512) + 11, hlt⟩, (flush1_2 _).mpr (by show (12 * ((i 0).val / 512) + 11) % 12 = 11; omega), ?_⟩
  rw [mem_blk1]
  obtain ⟨-, -, -, -, e0, e1⟩ := idx1 ⟨12 * ((i 0).val / 512) + 11, hlt⟩
  intro a
  match a with
  | ⟨0, _⟩ =>
    show win1_2.index _ (0 : Fin 2) * 512 ≤ (i 0).val ∧ (i 0).val < win1_2.index _ (0 : Fin 2) * 512 + 512
    rw [e0]; dsimp only; omega
  | ⟨1, _⟩ =>
    show win1_2.index _ (1 : Fin 2) * 3072 ≤ (i 1).val ∧ (i 1).val < win1_2.index _ (1 : Fin 2) * 3072 + 3072
    rw [e1]; omega

/-- THE ARRAY after the second region: the full contraction of the two arrays as the region finds them. -/
theorem final1 (c : Dev nD) : (dat1 V c).arrAt 2 cfg1.N = G1 (V c main_arg0) (V c main_v0) :=
  (dat1 V c).arrAt_eq_of_cover 2 _ (flushed1_eq V c) cover1

end

end Cert.KernelIdeal.Val

end
-- ==== Proof.RefIsSpec.lean ====
/-
  The reference program's value is the specification.

  The reference exponentiates the parameter array, multiplies by the mask, totals each row, spreads the
  row total back over the row, divides entrywise, transposes, and contracts the batch array against the
  result. Read one element at a time this is, for a batch row `b` and a weight row `r`,
      ∑ k, x b k · ( e r k / ∑ k', e r k' )      with   e r k = exp (w r k) · mask r k ,
  which is the specification's `out` word for word. The only arithmetic fact used is that the row total
  starts from the float zero, which is the extended real `0`, a left unit of the addition.
-/
import proofs.«114731_j63780264346270_1_alg».proof.Proof.Gen.ReferenceIdeal.Read
import proofs.«114731_j63780264346270_1_alg».proof.Proof.Spec

noncomputable section

namespace Cert.RefValue

open Idealize.ShloMosaic Idealize.ShloMosaic.ValueIdx Cert.ReferenceIdeal Cert.ReferenceIdeal.Read

variable (x1 x2 : (⟨S3072x12288, .f32⟩ : BufTy).Contents (Elt Ideal))

/-- The product of the exponential and the mask, at row `r` and column `k`, is the unnormalised weight. -/
theorem v1_at (r : Fin 3072) (k : Fin 12288) :
    val_main_v1 (F := Ideal) x1 x2 (ix2 r k) = Cert.Spec.e x1 x2 (ix2 r k) := by
  rw [val_main_v1_apply, val_main_v0_apply, Ideal.mulf_def, Ideal.hostUnary_exp_def]
  rfl

/-- The row reduction at row `r` is the row's total: it starts from zero and adds every column. -/
theorem v2_at (r : Fin 3072) :
    val_main_v2 (F := Ideal) x1 x2 (ix1 r) = Cert.Spec.rowsum x1 x2 r := by
  rw [val_main_v2_apply, val_main_cst_apply, Ideal.ofBits_def, Ideal.ofBits_zero_f32, zero_add]
  unfold Cert.Spec.rowsum
  refine Finset.sum_congr rfl fun k _ => ?_
  have h : idx_main_v2 (ix1 r) k = ix2 r k :=
    funext fun a => Fin.ext (by match a with | ⟨0, _⟩ => rfl | ⟨1, _⟩ => rfl)
  rw [h, v1_at]

/-- The row total spread back over the row reads, at every column of row `r`, that row's total. -/
theorem v4_at (r : Fin 3072) (k : Fin 12288) :
    val_main_v4 (F := Ideal) x1 x2 (ix2 r k) = Cert.Spec.rowsum x1 x2 r := by
  rw [val_main_v4_apply, val_main_v3_apply]
  have h : idx_main_v3 (idx_main_v4 (ix2 r k)) = ix1 r :=
    funext fun a => Fin.ext (by match a with | ⟨0, _⟩ => rfl)
  rw [h, v2_at]

/-- The entrywise quotient at row `r` and column `k` is the normalised weight. -/
theorem v5_at (r : Fin 3072) (k : Fin 12288) :
    val_main_v5 (F := Ideal) x1 x2 (ix2 r k) = Cert.Spec.wn x1 x2 r k := by
  rw [val_main_v5_apply, v1_at, v4_at, Ideal.hostDivf_def]
  rfl

/-- The reference's product before the last reshape is the specification's output. -/
theorem ref_eq (x0 : (⟨Cert.ReferenceIdeal.S1024x12288, .f32⟩ : BufTy).Contents (Elt Ideal))
    (x1 x2 : (⟨Cert.ReferenceIdeal.S3072x12288, .f32⟩ : BufTy).Contents (Elt Ideal)) :
    Cert.ReferenceIdeal.Read.val_main_v7 (F := Ideal) x0 x1 x2 = Cert.Spec.out x0 x1 x2 := by
  funext i
  rw [val_main_v7_apply]
  unfold Cert.Spec.out
  refine Finset.sum_congr rfl fun k _ => ?_
  rw [val_main_v6_apply]
  have hl : lidx_main_v7 i k = ix2 (n0 := 1024) (n1 := 12288) (i 0) k :=
    funext fun a => Fin.ext (by match a with | ⟨0, _⟩ => rfl | ⟨1, _⟩ => rfl)
  have hr : idx_main_v6 (ridx_main_v7 i k) = ix2 (n0 := 3072) (n1 := 12288) (i 1) k :=
    funext fun a => Fin.ext (by match a with | ⟨0, _⟩ => rfl | ⟨1, _⟩ => rfl)
  rw [hl, hr, v5_at x1 x2 (i 1) k]

end Cert.RefValue

end
-- ==== Proof.lean ====
/-
  The certificate: a weight matrix normalised row by row, then a matrix product with it, against the same two steps
  written in plain array operations.

  Both programs take `x` (1024 × 12288), `w` and `mask` (3072 × 12288). With e = exp(w)·mask and s the row totals of e,
  the normalised weights are n = e / s, and the result is x · nᵀ (1024 × 3072) reshaped to 1024 × 512 × 6.

  The kernel computes it in two regions. The first turns each block of 96 rows of `w`, `mask` into the block of `n`. The
  second walks a 2 × 12 grid: for each of two blocks of 512 batch rows it accumulates, over twelve blocks of 1024
  columns, the product of the staged block of `x` with the staged block of `n`, starting from zero, and writes the
  accumulator out after the twelfth. Over the extended reals the changes of float format are the identity and a sum of
  12288 terms taken as twelve running blocks of 1024 from zero is the same sum — addition there is associative and
  commutative, and nothing else is used: no input needs to be finite for the two results to agree.

  The three frames: each kernel program runs as its two regions followed by the reshape, every region entered and
  left with the unscoped buffers at contents followed through the program (`Hand.frame`, the same proof at the
  word-level and at the extended reals); the reference is a straight line of array operations. The ideal pass rewrote
  nothing, so the idealised kernel is the kernel's own text. The value claim: the kernel's product array after the
  second region is `Spec.out` of the three arguments (`kernel_value`: the first region leaves the normalised weights,
  the second the full contraction with them), the reference's is the same function (`RefValue.ref_eq`), and the last
  reshape is the same operation on both sides.
-/
import proofs.«114731_j63780264346270_1_alg».proof.Defs
import proofs.«114731_j63780264346270_1_alg».proof.Proof.Gen.Kernel
import proofs.«114731_j63780264346270_1_alg».proof.Proof.Gen.Kernel.Skeleton
import proofs.«114731_j63780264346270_1_alg».proof.Proof.Gen.Kernel.Launch
import proofs.«114731_j63780264346270_1_alg».proof.Proof.Gen.Kernel.Regions
import proofs.«114731_j63780264346270_1_alg».proof.Proof.Gen.Kernel.Points
import proofs.«114731_j63780264346270_1_alg».proof.Proof.Gen.KernelIdeal
import proofs.«114731_j63780264346270_1_alg».proof.Proof.Gen.KernelIdeal.Skeleton
import proofs.«114731_j63780264346270_1_alg».proof.Proof.Gen.KernelIdeal.Launch
import proofs.«114731_j63780264346270_1_alg».proof.Proof.Gen.KernelIdeal.Regions
import proofs.«114731_j63780264346270_1_alg».proof.Proof.Gen.KernelIdeal.Points
import proofs.«114731_j63780264346270_1_alg».proof.Proof.Gen.ReferenceIdeal
import proofs.«114731_j63780264346270_1_alg».proof.Proof.Gen.ReferenceIdeal.Run
import proofs.«114731_j63780264346270_1_alg».proof.Proof.Gen.ReferenceIdeal.Read
import proofs.«114731_j63780264346270_1_alg».proof.Proof.Gen.Pre_finite_inputs
import proofs.«114731_j63780264346270_1_alg».proof.Proof.K.Run
import proofs.«114731_j63780264346270_1_alg».proof.Proof.KI.Run
import proofs.«114731_j63780264346270_1_alg».proof.Proof.ValNorm
import proofs.«114731_j63780264346270_1_alg».proof.Proof.ValAcc
import proofs.«114731_j63780264346270_1_alg».proof.Proof.RefIsSpec
import Idealize.ShloMosaic.Adequacy
import Idealize.ShloMosaic.Init

noncomputable section

namespace Cert.Proof

open Idealize.ShloMosaic Idealize.ShloMosaic.TcCoe Idealize.ShloMosaic.ValueIdx Idealize.SL.Sem

/-! ## The kernel's product array is the specification -/

section
open Cert.KernelIdeal Cert.KernelIdeal.Gen Cert.KernelIdeal.Hand Cert.KernelIdeal.Val

/-- After the second region the product array holds, at every (b, r), the sum over the 12288 columns of `x` at (b, k)
    times the normalised weight at (r, k): the second region leaves the full contraction of the arrays it is entered
    with, of which `x` is untouched and the weight array is what the first region left — the normalised weights of `w`
    and `mask`. -/
theorem kernel_value (m : (ℓ : Loc nD τ sig) → Buf (Elt Ideal) ℓ) (c : Dev nD) :
    (dat1 (VB m) c).arrAt 2 cfg1.N
      = Cert.Spec.out (m ((c : Thread nD τ).loc main_arg0)) (m ((c : Thread nD τ).loc main_arg1)) (m ((c : Thread nD τ).loc main_arg2)) := by
  have hx : VB m c main_arg0 = m ((c : Thread nD τ).loc main_arg0) := W1_of_ne m c main_arg0 (by decide)
  have hw : VB m c main_v0 = G0 (m ((c : Thread nD τ).loc main_arg1)) (m ((c : Thread nD τ).loc main_arg2)) :=
    (W1_arr m c 2).trans (final0 (VA m) c)
  rw [final1 (VB m) c, hx, hw]
  rfl

end

/-! ## The claims -/

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Over the extended reals both programs end with the reshape of `Spec.out` of arguments that agree. -/
theorem algebraic : Cert.algebraic_KernelIdeal_ReferenceIdeal := by
  intro m ρ m' ρ' _ hagree
  refine ⟨fun c => shapeCast Cert.KernelIdeal.S1024x512x6
      (Cert.Spec.out (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2)))
      Cert.KernelIdeal.Facts₀.shapeCasts_S1024x3072_S1024x512x6, ?_, ?_⟩
  · refine (θ_run Cert.KernelIdeal.defs _ _).mono (fun _ h c => ⟨(h c).1.trans ?_, (h c).2⟩) (Cert.KernelIdeal.Hand.run_value m ρ)
    rw [kernel_value m c]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v8_eq]
    unfold Cert.ReferenceIdeal.Read.val_main_v8
    rw [Cert.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
